-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x240x64x64 : Shape := ⟨4, ![32, 240, 64, 64]⟩
abbrev S64x240 : Shape := ⟨2, ![64, 240]⟩
abbrev S64 : Shape := ⟨1, ![64]⟩
abbrev S1x64x240 : Shape := ⟨3, ![1, 64, 240]⟩
abbrev S_ : Shape := ⟨0, ![]⟩

class Facts : Prop where
  bcast_S_S32x240x64x64 : S_.BroadcastsInDim S32x240x64x64 (![] : Fin 0 → Fin S32x240x64x64.rank)
  reducesTo_S32x240x64x64_S_d0_1_2_3 : S32x240x64x64.ReducesTo [0, 1, 2, 3] S_
  h_S_ : 0 < S_.numel
  bcast_S_S64x240 : S_.BroadcastsInDim S64x240 (![] : Fin 0 → Fin S64x240.rank)
  reducesTo_S64x240_S_d0_1 : S64x240.ReducesTo [0, 1] S_
  bcast_S_S64 : S_.BroadcastsInDim S64 (![] : Fin 0 → Fin S64.rank)
  reducesTo_S64_S_d0 : S64.ReducesTo [0] S_
  bcast_S_S1x64x240 : S_.BroadcastsInDim S1x64x240 (![] : Fin 0 → Fin S1x64x240.rank)
  reducesTo_S1x64x240_S_d0_1_2 : S1x64x240.ReducesTo [0, 1, 2] S_

variable [Facts]

def fn_part1 {F : FTy → Type} [FloatOps F] (main_v13 : IVec S_ 1) (main_v16 : IVec S1x64x240 1) : IVec S_ 1 :=
  let main_c_5 : IVec S_ 1 := constantI S_ 1 1#1
  let main_v17 : IVec S_ 1 := (fun x v => Host.reduce IntOp.andi x v reducesTo_S1x64x240_S_d0_1_2 h_S_) main_v16 main_c_5
  let main_v18 : IVec S_ 1 := andi main_v13 main_v17
  main_v18

def fn {F : FTy → Type} [FloatOps F] (main_arg0 : FVec F S32x240x64x64 .f32) (main_arg1 : FVec F S64x240 .f32) (main_arg2 : FVec F S64 .f32) (main_arg3 : FVec F S1x64x240 .f32) : IVec S_ 1 :=
  let main_v0 : FVec F S32x240x64x64 .f32 := Host.absf main_arg0
  let main_cst : FVec F S_ .f32 := constant S_ .f32 0x7F800000#32
  let main_v1 : FVec F S32x240x64x64 .f32 := broadcastInDim S32x240x64x64 ![] bcast_S_S32x240x64x64 main_cst
  let main_v2 : IVec S32x240x64x64 1 := cmpf .olt main_v0 main_v1
  let main_c : IVec S_ 1 := constantI S_ 1 1#1
  let main_v3 : IVec S_ 1 := (fun x v => Host.reduce IntOp.andi x v reducesTo_S32x240x64x64_S_d0_1_2_3 h_S_) main_v2 main_c
  let main_v4 : FVec F S64x240 .f32 := Host.absf main_arg1
  let main_cst_0 : FVec F S_ .f32 := constant S_ .f32 0x7F800000#32
  let main_v5 : FVec F S64x240 .f32 := broadcastInDim S64x240 ![] bcast_S_S64x240 main_cst_0
  let main_v6 : IVec S64x240 1 := cmpf .olt main_v4 main_v5
  let main_c_1 : IVec S_ 1 := constantI S_ 1 1#1
  let main_v7 : IVec S_ 1 := (fun x v => Host.reduce IntOp.andi x v reducesTo_S64x240_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64x240 .f32 := Host.absf main_arg3
  let main_cst_4 : FVec F S_ .f32 := constant S_ .f32 0x7F800000#32
  let main_v15 : FVec F S1x64x240 .f32 := broadcastInDim S1x64x240 ![] bcast_S_S1x64x240 main_cst_4
  let main_v16 : IVec S1x64x240 1 := cmpf .olt main_v14 main_v15
  fn_part1 (F := F) main_v13 main_v16
-- ==== Kernel.lean ====
abbrev S32x240x64x64 : Shape := ⟨4, ![32, 240, 64, 64]⟩
abbrev S64x240 : Shape := ⟨2, ![64, 240]⟩
abbrev S64 : Shape := ⟨1, ![64]⟩
abbrev S1x64x240 : Shape := ⟨3, ![1, 64, 240]⟩
abbrev S32x240x4096 : Shape := ⟨3, ![32, 240, 4096]⟩
abbrev S64x1 : Shape := ⟨2, ![64, 1]⟩
abbrev S32x64x240 : Shape := ⟨3, ![32, 64, 240]⟩
abbrev S1x240x1024 : Shape := ⟨3, ![1, 240, 1024]⟩
abbrev S240x1024 : Shape := ⟨2, ![240, 1024]⟩
abbrev S64x1024 : Shape := ⟨2, ![64, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S32x15360 : Shape := ⟨2, ![32, 15360]⟩

abbrev nBuf : Space → Nat
  | .hbm => 9
  | .vmem => 9
  | .smem => 0
  | _ => 0

abbrev bufTy : (tb : Table) → Fin (tcTables nBuf tb) → BufTy
  | .hbm, ⟨0, _⟩ => ⟨S32x240x64x64, .f32⟩
  | .hbm, ⟨1, _⟩ => ⟨S64x240, .f32⟩
  | .hbm, ⟨2, _⟩ => ⟨S64, .f32⟩
  | .hbm, ⟨3, _⟩ => ⟨S1x64x240, .f32⟩
  | .hbm, ⟨4, _⟩ => ⟨S32x240x4096, .f32⟩
  | .hbm, ⟨5, _⟩ => ⟨S64x1, .f32⟩
  | .hbm, ⟨6, _⟩ => ⟨S64x240, .f32⟩
  | .hbm, ⟨7, _⟩ => ⟨S32x64x240, .f32⟩
  | .hbm, ⟨8, _⟩ => ⟨S32x15360, .f32⟩
  | .local _ .vmem, ⟨0, _⟩ => ⟨S1x240x1024, .f32⟩
  | .local _ .vmem, ⟨1, _⟩ => ⟨S1x240x1024, .f32⟩
  | .local _ .vmem, ⟨2, _⟩ => ⟨S64x240, .f32⟩
  | .local _ .vmem, ⟨3, _⟩ => ⟨S64x1, .f32⟩
  | .local _ .vmem, ⟨4, _⟩ => ⟨S64x240, .f32⟩
  | .local _ .vmem, ⟨5, _⟩ => ⟨S1x64x240, .f32⟩
  | .local _ .vmem, ⟨6, _⟩ => ⟨S1x64x240, .f32⟩
  | .local _ .vmem, ⟨7, _⟩ => ⟨S64x1, .f32⟩
  | .local _ .vmem, ⟨8, _⟩ => ⟨S64x240, .f32⟩
  | _, _ => ⟨S32x240x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_19 : BitVec 32 := 0#32
  let v38 : BitVec 1 := Scalar.cmpi .ne v37 c0_i32_19
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x240x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x240 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32x240x64x64_S32x240x4096 : S32x240x64x64.ShapeCasts S32x240x4096
  shapeCasts_S64_S64x1 : S64.ShapeCasts S64x1
  shapeCasts_S1x64x240_S64x240 : S1x64x240.ShapeCasts S64x240
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x240_S64x240_0_0 : ∀ a, (![0, 0] : Fin 2 → Nat) a + S64x240.size a ≤ S64x240.size a
  h_S64x240 : 0 < S64x240.numel
  shapeCasts_S64x240_S64x240 : S64x240.ShapeCasts S64x240
  inb_S1x240x1024_S1x240x1024_0_0_0 : ∀ a, (![0, 0, 0] : Fin 3 → Nat) a + S1x240x1024.size a ≤ S1x240x1024.size a
  h_S1x240x1024 : 0 < S1x240x1024.numel
  shapeCasts_S1x240x1024_S240x1024 : S1x240x1024.ShapeCasts S240x1024
  bitsLt_bf16_f32 : FTy.bits .bf16 < FTy.bits .f32
  broadcasts_S64x1_S64x1024 : S64x1.Broadcasts S64x1024
  reduces_S64x1024_S1024 : S64x1024.Reduces [0] S1024
  shapeCasts_S1024_S1x1024 : S1024.ShapeCasts S1x1024
  broadcasts_S1x1024_S64x1024 : S1x1024.Broadcasts S64x1024
  reduces_S64x1024_S64 : S64x1024.Reduces [1] S64
  broadcasts_S64x1_S64x240 : S64x1.Broadcasts S64x240
  reduces_S64x240_S64 : S64x240.Reduces [1] S64
  reduces_S64x1_S1 : S64x1.Reduces [0] S1
  shapeCasts_S1_S1x1 : S1.ShapeCasts S1x1
  broadcasts_S1x1_S64x240 : S1x1.Broadcasts S64x240
  inb_S1x64x240_S1x64x240_0_0_0 : ∀ a, (![0, 0, 0] : Fin 3 → Nat) a + S1x64x240.size a ≤ S1x64x240.size a
  h_S1x64x240 : 0 < S1x64x240.numel
  shapeCasts_S64x240_S1x64x240 : S64x240.ShapeCasts S1x64x240
  shapeCasts_S32x64x240_S32x15360 : S32x64x240.ShapeCasts S32x15360
  dot_S64x240_S240x1024_S64x1024_1_0_0_1_n_n_wf : DotDims.WF S64x240 S240x1024 S64x1024 [1] [0] [0] [1] [] []
  dot_S64x1024_S240x1024_S64x240_1_1_0_0_n_n_wf : DotDims.WF S64x1024 S240x1024 S64x240 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x240x1024.size a ≤ S32x240x4096.size a
  hwx0_0 : ∀ i : grid0.Coords, EltTy.bits .f32 = 32 ∨ (Rect.block (s := S32x240x4096) S1x240x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x240.size a ≤ S64x240.size a
  hwx0_1 : ∀ i : grid0.Coords, EltTy.bits .f32 = 32 ∨ (Rect.block (s := S64x240) S64x240.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x240.size a ≤ S64x240.size a
  hwx0_3 : ∀ i : grid0.Coords, EltTy.bits .f32 = 32 ∨ (Rect.block (s := S64x240) S64x240.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x240.size a ≤ S32x64x240.size a
  hwx0_4 : ∀ i : grid0.Coords, EltTy.bits .f32 = 32 ∨ (Rect.block (s := S32x64x240) S1x64x240.size (cc0_transform_4 i) (hinb0_4 i)).WholeWords (EltTy.packing .f32)

variable [Facts₀]

def dot_S64x240_S240x1024_S64x1024_1_0_0_1_n_n : DotDims S64x240 S240x1024 S64x1024 where
  lhsContracting := [1]
  rhsContracting := [0]
  lhsNonContracting := [0]
  rhsNonContracting := [1]
  lhsBatch := []
  rhsBatch := []
  wf := dot_S64x240_S240x1024_S64x1024_1_0_0_1_n_n_wf
def dot_S64x1024_S240x1024_S64x240_1_1_0_0_n_n : DotDims S64x1024 S240x1024 S64x240 where
  lhsContracting := [1]
  rhsContracting := [1]
  lhsNonContracting := [0]
  rhsNonContracting := [0]
  lhsBatch := []
  rhsBatch := []
  wf := dot_S64x1024_S240x1024_S64x240_1_1_0_0_n_n_wf

abbrev win0_0 : Pipeline.Window sig grid0 :=
  Pipeline.Window.ofSpec (Memref.whole main_v0) S1x240x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x240.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x240.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64x240.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x240x64x64 : Shape := ⟨4, ![32, 240, 64, 64]⟩
abbrev S64x240 : Shape := ⟨2, ![64, 240]⟩
abbrev S64 : Shape := ⟨1, ![64]⟩
abbrev S1x64x240 : Shape := ⟨3, ![1, 64, 240]⟩
abbrev S32x64x64x240 : Shape := ⟨4, ![32, 64, 64, 240]⟩
abbrev S32x4096x240 : Shape := ⟨3, ![32, 4096, 240]⟩
abbrev S32x4096x64 : Shape := ⟨3, ![32, 4096, 64]⟩
abbrev S1x1x64 : Shape := ⟨3, ![1, 1, 64]⟩
abbrev S_ : Shape := ⟨0, ![]⟩
abbrev S32x4096 : Shape := ⟨2, ![32, 4096]⟩
abbrev S32x4096x1 : Shape := ⟨3, ![32, 4096, 1]⟩
abbrev S32x64 : Shape := ⟨2, ![32, 64]⟩
abbrev S32x64x240 : Shape := ⟨3, ![32, 64, 240]⟩
abbrev S32x64x1 : Shape := ⟨3, ![32, 64, 1]⟩
abbrev S32x15360 : Shape := ⟨2, ![32, 15360]⟩
abbrev S32 : Shape := ⟨1, ![32]⟩
abbrev S32x1 : Shape := ⟨2, ![32, 1]⟩

abbrev nBuf : Space → Nat
  | .hbm => 53
  | .vmem => 0
  | .smem => 0
  | _ => 0

abbrev bufTy : (tb : Table) → Fin (tcTables nBuf tb) → BufTy
  | .hbm, ⟨0, _⟩ => ⟨S32x240x64x64, .f32⟩
  | .hbm, ⟨1, _⟩ => ⟨S64x240, .f32⟩
  | .hbm, ⟨2, _⟩ => ⟨S64, .f32⟩
  | .hbm, ⟨3, _⟩ => ⟨S1x64x240, .f32⟩
  | .hbm, ⟨4, _⟩ => ⟨S32x64x64x240, .f32⟩
  | .hbm, ⟨5, _⟩ => ⟨S32x4096x240, .f32⟩
  | .hbm, ⟨6, _⟩ => ⟨S32x4096x64, .f32⟩
  | .hbm, ⟨7, _⟩ => ⟨S1x1x64, .f32⟩
  | .hbm, ⟨8, _⟩ => ⟨S32x4096x64, .f32⟩
  | .hbm, ⟨9, _⟩ => ⟨S32x4096x64, .f32⟩
  | .hbm, ⟨10, _⟩ => ⟨S_, .f32⟩
  | .hbm, ⟨11, _⟩ => ⟨S32x4096, .f32⟩
  | .hbm, ⟨12, _⟩ => ⟨S_, .f32⟩
  | .hbm, ⟨13, _⟩ => ⟨S32x4096, .f32⟩
  | .hbm, ⟨14, _⟩ => ⟨S32x4096, .f32⟩
  | .hbm, ⟨15, _⟩ => ⟨S32x4096x1, .f32⟩
  | .hbm, ⟨16, _⟩ => ⟨S32x4096x64, .f32⟩
  | .hbm, ⟨17, _⟩ => ⟨S32x4096x64, .f32⟩
  | .hbm, ⟨18, _⟩ => ⟨S32x4096x64, .f32⟩
  | .hbm, ⟨19, _⟩ => ⟨S_, .f32⟩
  | .hbm, ⟨20, _⟩ => ⟨S32x4096, .f32⟩
  | .hbm, ⟨21, _⟩ => ⟨S32x4096x1, .f32⟩
  | .hbm, ⟨22, _⟩ => ⟨S32x4096x64, .f32⟩
  | .hbm, ⟨23, _⟩ => ⟨S32x4096x64, .f32⟩
  | .hbm, ⟨24, _⟩ => ⟨S_, .f32⟩
  | .hbm, ⟨25, _⟩ => ⟨S32x64, .f32⟩
  | .hbm, ⟨26, _⟩ => ⟨S32x64x240, .f32⟩
  | .hbm, ⟨27, _⟩ => ⟨S32x64x1, .f32⟩
  | .hbm, ⟨28, _⟩ => ⟨S32x64x240, .f32⟩
  | .hbm, ⟨29, _⟩ => ⟨S32x64x240, .f32⟩
  | .hbm, ⟨30, _⟩ => ⟨S32x64x240, .f32⟩
  | .hbm, ⟨31, _⟩ => ⟨S32x64x240, .f32⟩
  | .hbm, ⟨32, _⟩ => ⟨S32x64x240, .f32⟩
  | .hbm, ⟨33, _⟩ => ⟨S_, .f32⟩
  | .hbm, ⟨34, _⟩ => ⟨S32x64, .f32⟩
  | .hbm, ⟨35, _⟩ => ⟨S32x64x1, .f32⟩
  | .hbm, ⟨36, _⟩ => ⟨S32x64x1, .f32⟩
  | .hbm, ⟨37, _⟩ => ⟨S_, .f32⟩
  | .hbm, ⟨38, _⟩ => ⟨S32x64x1, .f32⟩
  | .hbm, ⟨39, _⟩ => ⟨S32x64x1, .f32⟩
  | .hbm, ⟨40, _⟩ => ⟨S32x64x240, .f32⟩
  | .hbm, ⟨41, _⟩ => ⟨S32x64x240, .f32⟩
  | .hbm, ⟨42, _⟩ => ⟨S32x15360, .f32⟩
  | .hbm, ⟨43, _⟩ => ⟨S32x15360, .f32⟩
  | .hbm, ⟨44, _⟩ => ⟨S_, .f32⟩
  | .hbm, ⟨45, _⟩ => ⟨S32, .f32⟩
  | .hbm, ⟨46, _⟩ => ⟨S32x1, .f32⟩
  | .hbm, ⟨47, _⟩ => ⟨S32x1, .f32⟩
  | .hbm, ⟨48, _⟩ => ⟨S_, .f32⟩
  | .hbm, ⟨49, _⟩ => ⟨S32x1, .f32⟩
  | .hbm, ⟨50, _⟩ => ⟨S32x1, .f32⟩
  | .hbm, ⟨51, _⟩ => ⟨S32x15360, .f32⟩
  | .hbm, ⟨52, _⟩ => ⟨S32x15360, .f32⟩
  | _, _ => ⟨S32x240x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  transposes_S32x240x64x64_S32x64x64x240_0_2_3_1 : S32x240x64x64.Transposes [0, 2, 3, 1] S32x64x64x240
  shapeCasts_S32x64x64x240_S32x4096x240 : S32x64x64x240.ShapeCasts S32x4096x240
  bcast_S64_S1x1x64_2 : S64.BroadcastsInDim S1x1x64 (![2] : Fin 1 → Fin S1x1x64.rank)
  bcast_S1x1x64_S32x4096x64_0_1_2 : S1x1x64.BroadcastsInDim S32x4096x64 (![0, 1, 2] : Fin 3 → Fin S32x4096x64.rank)
  reducesTo_S32x4096x64_S32x4096_d2 : S32x4096x64.ReducesTo [2] S32x4096
  h_S_ : 0 < S_.numel
  bcast_S_S32x4096 : S_.BroadcastsInDim S32x4096 (![] : Fin 0 → Fin S32x4096.rank)
  bcast_S32x4096_S32x4096x1_0_1 : S32x4096.BroadcastsInDim S32x4096x1 (![0, 1] : Fin 2 → Fin S32x4096x1.rank)
  bcast_S32x4096x1_S32x4096x64_0_1_2 : S32x4096x1.BroadcastsInDim S32x4096x64 (![0, 1, 2] : Fin 3 → Fin S32x4096x64.rank)
  reducesTo_S32x4096x64_S32x64_d1 : S32x4096x64.ReducesTo [1] S32x64
  bcast_S32x64_S32x64x1_0_1 : S32x64.BroadcastsInDim S32x64x1 (![0, 1] : Fin 2 → Fin S32x64x1.rank)
  bcast_S32x64x1_S32x64x240_0_1_2 : S32x64x1.BroadcastsInDim S32x64x240 (![0, 1, 2] : Fin 3 → Fin S32x64x240.rank)
  bcast_S1x64x240_S32x64x240_0_1_2 : S1x64x240.BroadcastsInDim S32x64x240 (![0, 1, 2] : Fin 3 → Fin S32x64x240.rank)
  reducesTo_S32x64x240_S32x64_d2 : S32x64x240.ReducesTo [2] S32x64
  bcast_S_S32x64x1 : S_.BroadcastsInDim S32x64x1 (![] : Fin 0 → Fin S32x64x1.rank)
  shapeCasts_S32x64x240_S32x15360 : S32x64x240.ShapeCasts S32x15360
  reducesTo_S32x15360_S32_d1 : S32x15360.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x15360_0_1 : S32x1.BroadcastsInDim S32x15360 (![0, 1] : Fin 2 → Fin S32x15360.rank)
  dot_S32x4096x240_S64x240_S32x4096x64_2_1_01_0_n_n_wf : DotDims.WF S32x4096x240 S64x240 S32x4096x64 [2] [1] [0, 1] [0] [] []
  dot_S32x4096x64_S32x4096x240_S32x64x240_1_1_2_2_0_0_wf : DotDims.WF S32x4096x64 S32x4096x240 S32x64x240 [1] [1] [2] [2] [0] [0]

variable [Facts₀]

def dot_S32x4096x240_S64x240_S32x4096x64_2_1_01_0_n_n : DotDims S32x4096x240 S64x240 S32x4096x64 where
  lhsContracting := [2]
  rhsContracting := [1]
  lhsNonContracting := [0, 1]
  rhsNonContracting := [0]
  lhsBatch := []
  rhsBatch := []
  wf := dot_S32x4096x240_S64x240_S32x4096x64_2_1_01_0_n_n_wf
def dot_S32x4096x64_S32x4096x240_S32x64x240_1_1_2_2_0_0 : DotDims S32x4096x64 S32x4096x240 S32x64x240 where
  lhsContracting := [1]
  rhsContracting := [1]
  lhsNonContracting := [2]
  rhsNonContracting := [2]
  lhsBatch := [0]
  rhsBatch := [0]
  wf := dot_S32x4096x64_S32x4096x240_S32x64x240_1_1_2_2_0_0_wf

class Facts : Prop extends Facts₀ where

variable [Facts]
-- ==== Proof.LibSoftmaxRow.lean ====
/-
  A row-wise softmax on the extended reals, and the vector-unit and host operations that compute its pieces,
  each read at an index.

  For a row `s : Fin n → EReal` and a starting value `init`, the row's maximum is the fold of `max` from `init`
  over the row, each entry is shifted by that maximum and exponentiated, and the softmax entry is the quotient of a
  shifted exponential by the sum of all of them along the row. Nothing here needs an entry to be finite: the
  definitions are stated with the operations as they are on the extended reals.

  The readings: a `[a] → [a, 1]` shape cast and an `[a, 1] → [a, b]` broadcast (a reduction kept as a column and
  spread back over the row); the index a one-axis reduction inserts, for the last axis of a rank-2 and of a rank-3
  array; the vector unit's maximum and sum over the last axis of an `[a, n]` block; the host's maximum over the
  last axis of a `[p, a, n]` array; and the f32 word of −∞ as the least extended real.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibSoftmaxRow

open Idealize.ShloMosaic Idealize.ShloMosaic.ValueIdx

/-! ## The row functions -/

/-- The maximum of a row, folded from a starting value. -/
def rowMax {n : ℕ} (init : EReal) (s : Fin n → EReal) : EReal :=
  (Finset.univ : Finset (Fin n)).fold max init s

/-- An entry minus the row's maximum, exponentiated. -/
def expShift {n : ℕ} (init : EReal) (s : Fin n → EReal) (c : Fin n) : EReal :=
  Ideal.exp (s c - rowMax init s)

/-- The softmax entry: a shifted exponential over the sum of the row's shifted exponentials. -/
def softmax {n : ℕ} (init : EReal) (s : Fin n → EReal) (c : Fin n) : EReal :=
  Ideal.div (expShift init s c) (∑ k : Fin n, expShift init s k)

/-- The f32 word of −∞ is the least extended real. -/
theorem ofBits_negInf : Ideal.ofBits .f32 0xFF800000#32 = ⊥ := by
  simp [Ideal.ofBits, Ideal.ieee]

/-- A maximum with −∞ changes nothing. -/
theorem max_negInf (x : EReal) : max (Ideal.ofBits .f32 0xFF800000#32) x = x := by
  rw [ofBits_negInf]; exact max_eq_right bot_le

/-! ## A reduction kept as a column and spread back over the row -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a reduction over the last axis inserts -/

/-- Rank 2: the reduced index `r` with column `k` put back is `(r, k)`. -/
theorem lift_row2 {a n : ℕ} (h : (⟨2, ![a, n]⟩ : Shape).Reduces [1] (⟨1, ![a]⟩ : Shape)) (r : Fin a)
    (k : Fin ((⟨2, ![a, n]⟩ : Shape).size 1)) : h.lift (ix1 r) k = ix2 r (⟨k.val, k.isLt⟩ : Fin n) := by
  funext c; apply Fin.ext
  fin_cases c <;> rfl

/-- Rank 3: the reduced index `(p, r)` with the last coordinate `k` put back is `(p, r, k)`. -/
theorem lift_row3 {p a n : ℕ} (h : (⟨3, ![p, a, n]⟩ : Shape).Reduces [2] (⟨2, ![p, a]⟩ : Shape)) (b : Fin p) (r : Fin a)
    (k : Fin ((⟨3, ![p, a, n]⟩ : Shape).size 2)) : h.lift (ix2 b r) k = ix3 b r (⟨k.val, k.isLt⟩ : Fin n) := by
  funext c; apply Fin.ext
  fin_cases c <;> rfl

/-! ## The vector unit's reductions over the last axis of an `[a, n]` block -/

/-- The maximum over a row, from the accumulator's value. -/
theorem multiReduction_max_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = rowMax (Ideal.ofBits .f32 acc) fun k : Fin n => src (ix2 r k) := by
  rw [Ideal.multiReduction_maximumf_single]
  have hf : (src ∘ h.lift (ix1 r)) = fun k : Fin n => src (ix2 r k) :=
    funext fun k => congrArg src (lift_row2 h r k)
  exact congrArg (fun f => Finset.fold max (Ideal.ofBits .f32 acc) f (Finset.univ : Finset (Fin n))) hf

/-- The sum over a row. -/
theorem multiReduction_add_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin n, src (ix2 r k) := by
  rw [Ideal.multiReduction_add_single]
  exact Finset.sum_congr rfl fun k _ => congrArg src (lift_row2 h r k)

/-! ## The host's maximum over the last axis of a `[p, a, n]` array -/

/-- The host's reduce with a maximum body over the last axis, at `(b, r)`: the row's maximum from the initial value. -/
theorem hostReduce_max_row {p a n : ℕ} {u : Shape} (x : (⟨3, ![p, a, n]⟩ : Shape).Idx → Ideal .f32) (init : u.Idx → Ideal .f32)
    (h' : (⟨3, ![p, a, n]⟩ : Shape).ReducesTo [2] (⟨2, ![p, a]⟩ : Shape))
    (h : (⟨3, ![p, a, n]⟩ : Shape).Reduces [2] (⟨2, ![p, a]⟩ : Shape)) (hu : 0 < u.numel) (b : Fin p) (r : Fin a) :
    Host.reduce FloatOps.maximumf x init h' hu (ix2 b r)
      = rowMax (init (Shape.Idx.first hu)) fun k : Fin n => x (ix3 b r k) := by
  rw [Host.reduce_eq_fold_single FloatOps.maximumf x init h' h hu]
  have hf : (x ∘ h.lift (ix2 b r)) = fun k : Fin n => x (ix3 b r k) :=
    funext fun k => congrArg x (lift_row3 h b r k)
  exact congrArg (fun f => Finset.fold max (init (Shape.Idx.first hu)) f (Finset.univ : Finset (Fin n))) hf

end Cert.LibSoftmaxRow

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.Spec.lean ====
/-
  The descriptor both programs compute, index by index on the extended reals.

  For an image `b` the 4096 pixels `n` (row `n / 64`, column `n % 64`) carry 240 channels. A pixel's 64 logits are
  its channels against the rows of the weight matrix plus a bias; its assignment to cluster `k` is the softmax of the
  logits over `k` (maximum folded from −∞, shifted exponentials, their sum, a quotient). The mass of a cluster is the
  sum of the assignments over the pixels, its weighted sum the sum of assignment × channel; the residual is
  mass × centre − weighted sum. Each cluster's row of residuals is divided by the larger of its Euclidean norm and ε,
  and then every entry by the larger of the whole descriptor's Euclidean norm and ε.

  A sum over the 4096 pixels is also the sum over four consecutive stretches of 1024 pixels, one after the other, and a
  sum over 64 · 240 flattened positions is the double sum over cluster and channel: sums in a commutative monoid, no
  finiteness anywhere.
-/
import Idealize.ShloMosaic.PureOps.Ideal
import Idealize.ShloMosaic.PureOps.Ideal.Laws
import Idealize.ShloMosaic.Lib.ValueIdx
import proofs.«149352_j1425929142291_1_alg».proof.Proof.LibSoftmaxRow
import proofs.«149352_j1425929142291_1_alg».proof.Proof.LibSumBlocks

noncomputable section

namespace Cert.Desc

open Idealize.ShloMosaic Idealize.ShloMosaic.ValueIdx

/-- The argument arrays as functions on their index sets. -/
abbrev FeatT := (⟨4, ![32, 240, 64, 64]⟩ : Shape).Idx → EReal
abbrev WeightT := (⟨2, ![64, 240]⟩ : Shape).Idx → EReal
abbrev BiasT := (⟨1, ![64]⟩ : Shape).Idx → EReal
abbrev CentreT := (⟨3, ![1, 64, 240]⟩ : Shape).Idx → EReal

variable (X : FeatT) (W : WeightT) (Bv : BiasT) (Cl : CentreT)

/-- Channel `c` of pixel `n` of image `b` (natural arguments, reduced into range). -/
def px (b n : ℕ) (c : Fin 240) : EReal :=
  X (ix4 (⟨b % 32, Nat.mod_lt _ (by norm_num)⟩ : Fin 32) c (⟨n / 64 % 64, Nat.mod_lt _ (by norm_num)⟩ : Fin 64)
    (⟨n % 64, Nat.mod_lt _ (by norm_num)⟩ : Fin 64))

/-- The logit of cluster `k` at a pixel. -/
def logit (b n : ℕ) (k : Fin 64) : EReal := (∑ c : Fin 240, px X b n c * W (ix2 k c)) + Bv (ix1 k)

/-- −∞, as the word both programs start their maximum from. -/
def negInf : EReal := Ideal.ofBits .f32 0xFF800000#32

/-- The assignment of a pixel to cluster `k`: the softmax of its logits. -/
def asg (b n : ℕ) (k : Fin 64) : EReal := Cert.LibSoftmaxRow.softmax negInf (logit X W Bv b n) k

/-- A cluster's mass and weighted sum over all pixels of an image. -/
def mass (b : ℕ) (k : Fin 64) : EReal := ∑ n : Fin 4096, asg X W Bv b n.val k
def wsum (b : ℕ) (k : Fin 64) (c : Fin 240) : EReal := ∑ n : Fin 4096, asg X W Bv b n.val k * px X b n.val c

/-- The same over the stretch `x` of 1024 pixels, and accumulated over the stretches `0 … j`. -/
def tileMass (b x : ℕ) (k : Fin 64) : EReal := ∑ y : Fin 1024, asg X W Bv b (x * 1024 + y.val) k
def tileW (b x : ℕ) (k : Fin 64) (c : Fin 240) : EReal :=
  ∑ y : Fin 1024, asg X W Bv b (x * 1024 + y.val) k * px X b (x * 1024 + y.val) c
def accMass (b j : ℕ) (k : Fin 64) : EReal := ∑ x ∈ Finset.range (j + 1), tileMass X W Bv b x k
def accW (b j : ℕ) (k : Fin 64) (c : Fin 240) : EReal := ∑ x ∈ Finset.range (j + 1), tileW X W Bv b x k c

theorem accMass_zero (b : ℕ) (k : Fin 64) : accMass X W Bv b 0 k = tileMass X W Bv b 0 k := by
  unfold accMass; exact Finset.sum_range_one _
theorem accW_zero (b : ℕ) (k : Fin 64) (c : Fin 240) : accW X W Bv b 0 k c = tileW X W Bv b 0 k c := by
  unfold accW; exact Finset.sum_range_one _
theorem accMass_succ (b j : ℕ) (k : Fin 64) :
    accMass X W Bv b (j + 1) k = accMass X W Bv b j k + tileMass X W Bv b (j + 1) k := by
  unfold accMass; exact Finset.sum_range_succ _ _
theorem accW_succ (b j : ℕ) (k : Fin 64) (c : Fin 240) :
    accW X W Bv b (j + 1) k c = accW X W Bv b j k c + tileW X W Bv b (j + 1) k c := by
  unfold accW; exact Finset.sum_range_succ _ _

/-- Four stretches of 1024 pixels are the 4096 pixels. -/
theorem accMass_three (b : ℕ) (k : Fin 64) : accMass X W Bv b 3 k = mass X W Bv b k := by
  unfold accMass mass tileMass
  rw [Cert.SumBlocks.sum_fin_blocks 4 1024 (by norm_num) (fun n : Fin 4096 => asg X W Bv b n.val k), Finset.sum_range]
theorem accW_three (b : ℕ) (k : Fin 64) (c : Fin 240) : accW X W Bv b 3 k c = wsum X W Bv b k c := by
  unfold accW wsum tileW
  rw [Cert.SumBlocks.sum_fin_blocks 4 1024 (by norm_num) (fun n : Fin 4096 => asg X W Bv b n.val k * px X b n.val c),
    Finset.sum_range]

/-- The residual of cluster `k`, channel `c`. -/
def resid (b : ℕ) (k : Fin 64) (c : Fin 240) : EReal :=
  mass X W Bv b k * Cl (ix3 (0 : Fin 1) k c) - wsum X W Bv b k c

/-- ε, as the word both programs carry. -/
def eps : EReal := Ideal.ofBits .f32 0x2B8CBCCC#32

/-- The divisor of a cluster's row, the row divided, the divisor of the whole descriptor, and the descriptor. -/
def rowNorm (b : ℕ) (k : Fin 64) : EReal :=
  max (Ideal.sqrt (∑ c : Fin 240, resid X W Bv Cl b k c * resid X W Bv Cl b k c)) eps
def intra (b : ℕ) (k : Fin 64) (c : Fin 240) : EReal := Ideal.div (resid X W Bv Cl b k c) (rowNorm X W Bv Cl b k)
def total (b : ℕ) : EReal :=
  max (Ideal.sqrt (∑ k : Fin 64, ∑ c : Fin 240, intra X W Bv Cl b k c * intra X W Bv Cl b k c)) eps
def desc (b : ℕ) (k : Fin 64) (c : Fin 240) : EReal := Ideal.div (intra X W Bv Cl b k c) (total X W Bv Cl b)

/-- The descriptor as a [32, 64, 240] array, and flattened to [32, 15360]: position `j` is cluster `j / 240`, channel `j % 240`. -/
def D3 : (⟨3, ![32, 64, 240]⟩ : Shape).Idx → EReal := fun i => desc X W Bv Cl (i 0).val (i 1) (i 2)
def G : (⟨2, ![32, 15360]⟩ : Shape).Idx → EReal := fun i =>
  desc X W Bv Cl (i 0).val (⟨(i 1).val / 240, by have h : (i 1).val < 15360 := (i 1).isLt; show _ < 64; omega⟩ : Fin 64)
    (⟨(i 1).val % 240, Nat.mod_lt _ (by norm_num)⟩ : Fin 240)

/-- The flat sum of squares over the 15360 positions is the double sum over cluster and channel. -/
theorem flat_sum (f : Fin 64 → Fin 240 → EReal) :
    ∑ j : Fin 15360, f (⟨j.val / 240, by have := j.isLt; omega⟩ : Fin 64) (⟨j.val % 240, Nat.mod_lt _ (by norm_num)⟩ : Fin 240)
      = ∑ k : Fin 64, ∑ c : Fin 240, f k c := by
  rw [Cert.SumBlocks.sum_fin_blocks 64 240 (by norm_num)]
  refine Finset.sum_congr rfl fun k _ => Finset.sum_congr rfl fun c _ => ?_
  have hk := k.isLt; have hc := c.isLt
  congr 1 <;> apply Fin.ext <;> dsimp only <;> omega

end Cert.Desc

end
-- ==== Proof.RefIs.lean ====
/-
  The reference program computes the descriptor of the specification, stage by stage.

  Each stage of the reference is read at an index given by its coordinates and identified with the corresponding
  quantity of the specification: the pixel's channel, the logit, the row maximum, the shifted exponential, the
  assignment, the cluster's mass and weighted sum, the residual, the row divisor, the row-normalised residual, the
  divisor of the whole descriptor, and the descriptor flattened to one row per image.
-/
import proofs.«149352_j1425929142291_1_alg».proof.Proof.Gen.ReferenceIdeal.Read
import proofs.«149352_j1425929142291_1_alg».proof.Proof.Spec

noncomputable section

namespace Cert.RefIs

open Cert.ReferenceIdeal Cert.ReferenceIdeal.Gen Cert.ReferenceIdeal.Read Idealize.ShloMosaic Idealize.ShloMosaic.ValueIdx

variable (x0 : (⟨S32x240x64x64, .f32⟩ : BufTy).Contents (Elt Ideal)) (x1 : (⟨S64x240, .f32⟩ : BufTy).Contents (Elt Ideal))
  (x2 : (⟨S64, .f32⟩ : BufTy).Contents (Elt Ideal)) (x3 : (⟨S1x64x240, .f32⟩ : BufTy).Contents (Elt Ideal))

/-- The transposed and reshaped input at (b, n, c) is channel c of pixel n of image b. -/
theorem v1_at (b : Fin 32) (n : Fin 4096) (c : Fin 240) :
    val_main_v1 (F := Ideal) x0 (ix3 b n c) = Cert.Desc.px x0 b.val n.val c := by
  rw [val_main_v1_apply, val_main_v0_apply]
  unfold Cert.Desc.px
  refine congrArg x0 (funext fun a => Fin.ext ?_)
  have hb := b.isLt; have hn := n.isLt; have hc := c.isLt
  match a with
  | ⟨0, _⟩ => show ((b.val * 4096 + n.val) * 240 + c.val) / 983040 = b.val % 32; omega
  | ⟨1, _⟩ => show ((b.val * 4096 + n.val) * 240 + c.val) % 240 = c.val; omega
  | ⟨2, _⟩ => show ((b.val * 4096 + n.val) * 240 + c.val) / 15360 % 64 = n.val / 64 % 64; omega
  | ⟨3, _⟩ => show ((b.val * 4096 + n.val) * 240 + c.val) / 240 % 64 = n.val % 64; omega

/-- The matrix product plus the broadcast bias at (b, n, k) is the logit of cluster k. -/
theorem v5_at (b : Fin 32) (n : Fin 4096) (k : Fin 64) :
    val_main_v5 (F := Ideal) x0 x1 x2 (ix3 b n k) = Cert.Desc.logit x0 x1 x2 b.val n.val k := by
  rw [val_main_v5_apply, Ideal.addf_def, val_main_v2_apply, val_main_v4_apply, val_main_v3_apply]
  unfold Cert.Desc.logit
  have e3 : idx_main_v3 (idx_main_v4 (ix3 b n k)) = ix1 k := funext fun a => match a with | ⟨0, _⟩ => rfl
  rw [e3]
  refine congrArg (· + x2 (ix1 k)) (Finset.sum_congr rfl fun c _ => ?_)
  have e1 : lidx_main_v2 (ix3 b n k) c = ix3 b n c :=
    funext fun a => match a with | ⟨0, _⟩ => rfl | ⟨1, _⟩ => rfl | ⟨2, _⟩ => rfl
  have e2 : ridx_main_v2 (ix3 b n k) c = ix2 k c :=
    funext fun a => match a with | ⟨0, _⟩ => rfl | ⟨1, _⟩ => rfl
  rw [e1, e2, v1_at]

/-- The reference's maximum over the clusters, joined with −∞, at (b, n) is the row maximum of the logits. -/
theorem v8_at (b : Fin 32) (n : Fin 4096) :
    val_main_v8 (F := Ideal) x0 x1 x2 (ix2 b n)
      = Cert.LibSoftmaxRow.rowMax Cert.Desc.negInf (Cert.Desc.logit x0 x1 x2 b.val n.val) := by
  rw [val_main_v8_apply, Ideal.maximumf_def, val_main_v7_apply, val_main_cst_0_apply, Ideal.ofBits_def,
    Cert.LibSoftmaxRow.max_negInf]
  unfold val_main_v6
  rw [Cert.LibSoftmaxRow.hostReduce_max_row (val_main_v5 (F := Ideal) x0 x1 x2) (val_main_cst (F := Ideal))
    reducesTo_S32x4096x64_S32x4096_d2 (by decide) h_S_ b n]
  rw [val_main_cst_apply, Ideal.ofBits_def]
  unfold Cert.Desc.negInf
  exact congrArg (Cert.LibSoftmaxRow.rowMax _) (funext fun k => v5_at x0 x1 x2 b n k)

/-- The shifted exponential at (b, n, k). -/
theorem v12_at (b : Fin 32) (n : Fin 4096) (k : Fin 64) :
    val_main_v12 (F := Ideal) x0 x1 x2 (ix3 b n k)
      = Cert.LibSoftmaxRow.expShift Cert.Desc.negInf (Cert.Desc.logit x0 x1 x2 b.val n.val) k := by
  rw [val_main_v12_apply, Ideal.hostUnary_exp_def, val_main_v11_apply, Ideal.subf_def, val_main_v10_apply,
    val_main_v9_apply]
  have e : idx_main_v9 (idx_main_v10 (ix3 b n k)) = ix2 b n :=
    funext fun a => match a with | ⟨0, _⟩ => rfl | ⟨1, _⟩ => rfl
  rw [e, v8_at, v5_at]
  rfl

/-- The sum of the shifted exponentials of a pixel, from the zero word. -/
theorem v13_at (b : Fin 32) (n : Fin 4096) :
    val_main_v13 (F := Ideal) x0 x1 x2 (ix2 b n)
      = ∑ k : Fin 64, Cert.LibSoftmaxRow.expShift Cert.Desc.negInf (Cert.Desc.logit x0 x1 x2 b.val n.val) k := by
  rw [val_main_v13_apply, val_main_cst_1_apply, Ideal.ofBits_def, Ideal.ofBits_zero_f32, zero_add]
  refine Finset.sum_congr rfl fun k _ => ?_
  have e : idx_main_v13 (ix2 b n) k = ix3 b n k :=
    funext fun a => match a with | ⟨0, _⟩ => rfl | ⟨1, _⟩ => rfl | ⟨2, _⟩ => rfl
  rw [e, v12_at]

/-- The quotient at (b, n, k) is the assignment of pixel n to cluster k. -/
theorem v16_at (b : Fin 32) (n : Fin 4096) (k : Fin 64) :
    val_main_v16 (F := Ideal) x0 x1 x2 (ix3 b n k) = Cert.Desc.asg x0 x1 x2 b.val n.val k := by
  rw [val_main_v16_apply, Ideal.hostDivf_def, val_main_v15_apply, val_main_v14_apply]
  have e : idx_main_v14 (idx_main_v15 (ix3 b n k)) = ix2 b n :=
    funext fun a => match a with | ⟨0, _⟩ => rfl | ⟨1, _⟩ => rfl
  rw [e, v13_at, v12_at]
  rfl

/-- The sum of the assignments over the pixels is the cluster's mass. -/
theorem v17_at (b : Fin 32) (k : Fin 64) :
    val_main_v17 (F := Ideal) x0 x1 x2 (ix2 b k) = Cert.Desc.mass x0 x1 x2 b.val k := by
  rw [val_main_v17_apply, val_main_cst_2_apply, Ideal.ofBits_def, Ideal.ofBits_zero_f32, zero_add]
  unfold Cert.Desc.mass
  refine Finset.sum_congr rfl fun n _ => ?_
  have e : idx_main_v17 (ix2 b k) n = ix3 b n k :=
    funext fun a => match a with | ⟨0, _⟩ => rfl | ⟨1, _⟩ => rfl | ⟨2, _⟩ => rfl
  rw [e, v16_at]

/-- The batched product of the assignments with the pixels is the cluster's weighted sum. -/
theorem v18_at (b : Fin 32) (k : Fin 64) (c : Fin 240) :
    val_main_v18 (F := Ideal) x0 x1 x2 (ix3 b k c) = Cert.Desc.wsum x0 x1 x2 b.val k c := by
  rw [val_main_v18_apply]
  unfold Cert.Desc.wsum
  refine Finset.sum_congr rfl fun n _ => ?_
  have e1 : lidx_main_v18 (ix3 b k c) n = ix3 b n k :=
    funext fun a => match a with | ⟨0, _⟩ => rfl | ⟨1, _⟩ => rfl | ⟨2, _⟩ => rfl
  have e2 : ridx_main_v18 (ix3 b k c) n = ix3 b n c :=
    funext fun a => match a with | ⟨0, _⟩ => rfl | ⟨1, _⟩ => rfl | ⟨2, _⟩ => rfl
  rw [e1, e2, v16_at, v1_at]

/-- Mass times centre minus weighted sum: the residual. -/
theorem v23_at (b : Fin 32) (k : Fin 64) (c : Fin 240) :
    val_main_v23 (F := Ideal) x0 x1 x2 x3 (ix3 b k c) = Cert.Desc.resid x0 x1 x2 x3 b.val k c := by
  rw [val_main_v23_apply, Ideal.subf_def, val_main_v22_apply, Ideal.mulf_def, val_main_v20_apply, val_main_v19_apply,
    val_main_v21_apply]
  have e1 : idx_main_v19 (idx_main_v20 (ix3 b k c)) = ix2 b k :=
    funext fun a => match a with | ⟨0, _⟩ => rfl | ⟨1, _⟩ => rfl
  have e2 : idx_main_v21 (ix3 b k c) = ix3 (0 : Fin 1) k c :=
    funext fun a => match a with | ⟨0, _⟩ => rfl | ⟨1, _⟩ => rfl | ⟨2, _⟩ => rfl
  rw [e1, e2, v17_at, v18_at]
  rfl

/-- The larger of a cluster row's Euclidean norm and ε: the row's divisor. -/
theorem v29_at (b : Fin 32) (k : Fin 64) :
    val_main_v29 (F := Ideal) x0 x1 x2 x3 (ix3 b k (0 : Fin 1)) = Cert.Desc.rowNorm x0 x1 x2 x3 b.val k := by
  rw [val_main_v29_apply, Ideal.maximumf_def, val_main_v27_apply, Ideal.hostUnary_sqrt_def, val_main_v26_apply,
    val_main_v28_apply, val_main_cst_4_apply, Ideal.ofBits_def]
  have e : idx_main_v26 (ix3 b k (0 : Fin 1)) = ix2 b k :=
    funext fun a => match a with | ⟨0, _⟩ => rfl | ⟨1, _⟩ => rfl
  rw [e, val_main_v25_apply, val_main_cst_3_apply, Ideal.ofBits_def, Ideal.ofBits_zero_f32, zero_add]
  unfold Cert.Desc.rowNorm Cert.Desc.eps
  refine congrArg (fun s => max (Ideal.sqrt s) (Ideal.ofBits .f32 0x2B8CBCCC#32)) (Finset.sum_congr rfl fun c _ => ?_)
  have e2 : idx_main_v25 (ix2 b k) c = ix3 b k c :=
    funext fun a => match a with | ⟨0, _⟩ => rfl | ⟨1, _⟩ => rfl | ⟨2, _⟩ => rfl
  rw [e2, val_main_v24_apply, Ideal.mulf_def, v23_at]

/-- The residual over its row's divisor. -/
theorem v31_at (b : Fin 32) (k : Fin 64) (c : Fin 240) :
    val_main_v31 (F := Ideal) x0 x1 x2 x3 (ix3 b k c) = Cert.Desc.intra x0 x1 x2 x3 b.val k c := by
  rw [val_main_v31_apply, Ideal.hostDivf_def, val_main_v30_apply]
  have e : idx_main_v30 (ix3 b k c) = ix3 b k (0 : Fin 1) :=
    funext fun a => match a with | ⟨0, _⟩ => rfl | ⟨1, _⟩ => rfl | ⟨2, _⟩ => rfl
  rw [e, v29_at, v23_at]
  rfl

/-- Flattened to one row per image, position j holds cluster j / 240, channel j % 240. -/
theorem v32_at (b : Fin 32) (j : Fin 15360) :
    val_main_v32 (F := Ideal) x0 x1 x2 x3 (ix2 b j)
      = Cert.Desc.intra x0 x1 x2 x3 b.val (⟨j.val / 240, by have := j.isLt; omega⟩ : Fin 64)
          (⟨j.val % 240, Nat.mod_lt _ (by norm_num)⟩ : Fin 240) := by
  rw [val_main_v32_apply]
  have e : idx_main_v32 (ix2 b j)
      = ix3 b (⟨j.val / 240, by have := j.isLt; omega⟩ : Fin 64) (⟨j.val % 240, Nat.mod_lt _ (by norm_num)⟩ : Fin 240) := by
    funext a; apply Fin.ext
    have hb := b.isLt; have hj := j.isLt
    match a with
    | ⟨0, _⟩ => show (b.val * 15360 + j.val) / 15360 = b.val; omega
    | ⟨1, _⟩ => show (b.val * 15360 + j.val) / 240 % 64 = j.val / 240; omega
    | ⟨2, _⟩ => show (b.val * 15360 + j.val) % 240 = j.val % 240; omega
  rw [e, v31_at]

/-- The larger of the whole descriptor's Euclidean norm and ε. -/
theorem v38_at (b : Fin 32) :
    val_main_v38 (F := Ideal) x0 x1 x2 x3 (ix2 b (0 : Fin 1)) = Cert.Desc.total x0 x1 x2 x3 b.val := by
  rw [val_main_v38_apply, Ideal.maximumf_def, val_main_v36_apply, Ideal.hostUnary_sqrt_def, val_main_v35_apply,
    val_main_v37_apply, val_main_cst_6_apply, Ideal.ofBits_def]
  have e : idx_main_v35 (ix2 b (0 : Fin 1)) = ix1 b := funext fun a => match a with | ⟨0, _⟩ => rfl
  rw [e, val_main_v34_apply, val_main_cst_5_apply, Ideal.ofBits_def, Ideal.ofBits_zero_f32, zero_add]
  unfold Cert.Desc.total Cert.Desc.eps
  refine congrArg (fun s => max (Ideal.sqrt s) (Ideal.ofBits .f32 0x2B8CBCCC#32)) ?_
  rw [← Cert.Desc.flat_sum fun k c => Cert.Desc.intra x0 x1 x2 x3 b.val k c * Cert.Desc.intra x0 x1 x2 x3 b.val k c]
  refine Finset.sum_congr rfl fun j _ => ?_
  have e2 : idx_main_v34 (ix1 b) j = ix2 b j := funext fun a => match a with | ⟨0, _⟩ => rfl | ⟨1, _⟩ => rfl
  rw [e2, val_main_v33_apply, Ideal.mulf_def, v32_at]

/-- The quotient by the descriptor's divisor at (b, j) is the flattened descriptor there. -/
theorem v40_at (b : Fin 32) (j : Fin 15360) :
    val_main_v40 (F := Ideal) x0 x1 x2 x3 (ix2 b j) = Cert.Desc.G x0 x1 x2 x3 (ix2 b j) := by
  rw [val_main_v40_apply, Ideal.hostDivf_def, val_main_v39_apply]
  have e : idx_main_v39 (ix2 b j) = ix2 b (0 : Fin 1) :=
    funext fun a => match a with | ⟨0, _⟩ => rfl | ⟨1, _⟩ => rfl
  rw [e, v38_at, v32_at]
  rfl

/-- The reference's result is the descriptor of the specification. -/
theorem ref_eq (x0 : (⟨Cert.ReferenceIdeal.S32x240x64x64, .f32⟩ : BufTy).Contents (Elt Ideal))
    (x1 : (⟨Cert.ReferenceIdeal.S64x240, .f32⟩ : BufTy).Contents (Elt Ideal))
    (x2 : (⟨Cert.ReferenceIdeal.S64, .f32⟩ : BufTy).Contents (Elt Ideal))
    (x3 : (⟨Cert.ReferenceIdeal.S1x64x240, .f32⟩ : BufTy).Contents (Elt Ideal)) :
    Cert.ReferenceIdeal.Read.val_main_v40 (F := Ideal) x0 x1 x2 x3 = Cert.Desc.G x0 x1 x2 x3 := by
  funext i
  have hi : i = ix2 (n0 := 32) (n1 := 15360) (i 0) (i 1) := eq_ix2 (n0 := 32) (n1 := 15360) i
  exact (congrArg (val_main_v40 (F := Ideal) x0 x1 x2 x3) hi).trans
    ((v40_at x0 x1 x2 x3 (i 0) (i 1)).trans (congrArg (Cert.Desc.G x0 x1 x2 x3) hi.symm))

end Cert.RefIs

end
-- ==== Proof.KPieces.lean ====
import proofs.«149352_j1425929142291_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KPieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! What each case of the body leaves in the two carried buffers and, at a last stretch, in the output block: the
    payload of the one store that covers the buffer, over the blocks the body loaded (for any float instance). -/

theorem sB0 (c : Dev nD) (i : grid0.Coords) (arg2 : Memref sig .tc .vmem S1x240x1024 .f32) (harg2 : arg2.IsWhole) (arg3 : Memref sig .tc .vmem S64x240 .f32) (harg3 : arg3.IsWhole) (arg4 : Memref sig .tc .vmem S64x1 .f32) (harg4 : arg4.IsWhole) (arg5 : Memref sig .tc .vmem S64x240 .f32) (harg5 : arg5.IsWhole) (arg6 : Memref sig .tc .vmem S1x64x240 .f32) (harg6 : arg6.IsWhole) (arg7 : Memref sig .tc .vmem S64x1 .f32) (harg7 : arg7.IsWhole) (arg8 : Memref sig .tc .vmem S64x240 .f32) (harg8 : arg8.IsWhole) (hc0 : ¬cond0_0 i) (hc1 : ¬cond0_1 i)
    (x0 : Vec F S1x240x1024 .f32) (x1 : Vec F S64x240 .f32) (x2 : Vec F S64x1 .f32) (x3 : Vec F S64x240 .f32) (xs0 : Vec F S64x1 .f32) (xs1 : Vec F S64x240 .f32) :
    sout0_B_0 c i arg2 harg2 arg3 harg3 arg4 harg4 arg5 harg5 arg6 harg6 arg7 harg7 arg8 harg8 hc0 hc1 x0 x1 x2 x3 xs0 xs1 = k0_pay7 x0 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  rw [View.canon_unit_zero hz2]
  simp only [View.readAt_eq_ld, harg2.read_unread, harg3.read_unread, harg4.read_unread, harg5.read_unread, harg7.read_unread, harg8.read_unread, View.ld_unit_zero (S := S1x240x1024) hz3, View.ld_unit_zero (S := S64x240) hz2, View.ld_unit_zero (S := S64x1) hz2]

theorem sB1 (c : Dev nD) (i : grid0.Coords) (arg2 : Memref sig .tc .vmem S1x240x1024 .f32) (harg2 : arg2.IsWhole) (arg3 : Memref sig .tc .vmem S64x240 .f32) (harg3 : arg3.IsWhole) (arg4 : Memref sig .tc .vmem S64x1 .f32) (harg4 : arg4.IsWhole) (arg5 : Memref sig .tc .vmem S64x240 .f32) (harg5 : arg5.IsWhole) (arg6 : Memref sig .tc .vmem S1x64x240 .f32) (harg6 : arg6.IsWhole) (arg7 : Memref sig .tc .vmem S64x1 .f32) (harg7 : arg7.IsWhole) (arg8 : Memref sig .tc .vmem S64x240 .f32) (harg8 : arg8.IsWhole) (hc0 : ¬cond0_0 i) (hc1 : ¬cond0_1 i)
    (x0 : Vec F S1x240x1024 .f32) (x1 : Vec F S64x240 .f32) (x2 : Vec F S64x1 .f32) (x3 : Vec F S64x240 .f32) (xs0 : Vec F S64x1 .f32) (xs1 : Vec F S64x240 .f32) :
    sout0_B_1 c i arg2 harg2 arg3 harg3 arg4 harg4 arg5 harg5 arg6 harg6 arg7 harg7 arg8 harg8 hc0 hc1 x0 x1 x2 x3 xs0 xs1 = k0_pay1 (k0_pay8 x0 x1 x2 xs1) := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg7.read_unread, harg8.read_unread, View.ld_unit_zero (S := S1x240x1024) hz3, View.ld_unit_zero (S := S64x240) hz2, View.ld_unit_zero (S := S64x1) hz2]

theorem sC0 (c : Dev nD) (i : grid0.Coords) (arg2 : Memref sig .tc .vmem S1x240x1024 .f32) (harg2 : arg2.IsWhole) (arg3 : Memref sig .tc .vmem S64x240 .f32) (harg3 : arg3.IsWhole) (arg4 : Memref sig .tc .vmem S64x1 .f32) (harg4 : arg4.IsWhole) (arg5 : Memref sig .tc .vmem S64x240 .f32) (harg5 : arg5.IsWhole) (arg6 : Memref sig .tc .vmem S1x64x240 .f32) (harg6 : arg6.IsWhole) (arg7 : Memref sig .tc .vmem S64x1 .f32) (harg7 : arg7.IsWhole) (arg8 : Memref sig .tc .vmem S64x240 .f32) (harg8 : arg8.IsWhole) (hc0 : ¬cond0_0 i) (hc1 : cond0_1 i)
    (x0 : Vec F S1x240x1024 .f32) (x1 : Vec F S64x240 .f32) (x2 : Vec F S64x1 .f32) (x3 : Vec F S64x240 .f32) (xs0 : Vec F S64x1 .f32) (xs1 : Vec F S64x240 .f32) :
    sout0_C_0 c i arg2 harg2 arg3 harg3 arg4 harg4 arg5 harg5 arg6 harg6 arg7 harg7 arg8 harg8 hc0 hc1 x0 x1 x2 x3 xs0 xs1 = k0_pay7 x0 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg7.read_unread, harg8.read_unread, View.ld_unit_zero (S := S1x240x1024) hz3, View.ld_unit_zero (S := S64x240) hz2, View.ld_unit_zero (S := S64x1) hz2]

theorem sC1 (c : Dev nD) (i : grid0.Coords) (arg2 : Memref sig .tc .vmem S1x240x1024 .f32) (harg2 : arg2.IsWhole) (arg3 : Memref sig .tc .vmem S64x240 .f32) (harg3 : arg3.IsWhole) (arg4 : Memref sig .tc .vmem S64x1 .f32) (harg4 : arg4.IsWhole) (arg5 : Memref sig .tc .vmem S64x240 .f32) (harg5 : arg5.IsWhole) (arg6 : Memref sig .tc .vmem S1x64x240 .f32) (harg6 : arg6.IsWhole) (arg7 : Memref sig .tc .vmem S64x1 .f32) (harg7 : arg7.IsWhole) (arg8 : Memref sig .tc .vmem S64x240 .f32) (harg8 : arg8.IsWhole) (hc0 : ¬cond0_0 i) (hc1 : cond0_1 i)
    (x0 : Vec F S1x240x1024 .f32) (x1 : Vec F S64x240 .f32) (x2 : Vec F S64x1 .f32) (x3 : Vec F S64x240 .f32) (xs0 : Vec F S64x1 .f32) (xs1 : Vec F S64x240 .f32) :
    sout0_C_1 c i arg2 harg2 arg3 harg3 arg4 harg4 arg5 harg5 arg6 harg6 arg7 harg7 arg8 harg8 hc0 hc1 x0 x1 x2 x3 xs0 xs1 = k0_pay1 (k0_pay8 x0 x1 x2 xs1) := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg7.read_unread, harg8.read_unread, View.ld_unit_zero (S := S1x240x1024) hz3, View.ld_unit_zero (S := S64x240) hz2, View.ld_unit_zero (S := S64x1) hz2]

theorem oC4 (c : Dev nD) (i : grid0.Coords) (arg2 : Memref sig .tc .vmem S1x240x1024 .f32) (harg2 : arg2.IsWhole) (arg3 : Memref sig .tc .vmem S64x240 .f32) (harg3 : arg3.IsWhole) (arg4 : Memref sig .tc .vmem S64x1 .f32) (harg4 : arg4.IsWhole) (arg5 : Memref sig .tc .vmem S64x240 .f32) (harg5 : arg5.IsWhole) (arg6 : Memref sig .tc .vmem S1x64x240 .f32) (harg6 : arg6.IsWhole) (arg7 : Memref sig .tc .vmem S64x1 .f32) (harg7 : arg7.IsWhole) (arg8 : Memref sig .tc .vmem S64x240 .f32) (harg8 : arg8.IsWhole) (hc0 : ¬cond0_0 i) (hc1 : cond0_1 i)
    (x0 : Vec F S1x240x1024 .f32) (x1 : Vec F S64x240 .f32) (x2 : Vec F S64x1 .f32) (x3 : Vec F S64x240 .f32) (xs0 : Vec F S64x1 .f32) (xs1 : Vec F S64x240 .f32) :
    out0_C_4 c i arg2 harg2 arg3 harg3 arg4 harg4 arg5 harg5 arg6 harg6 arg7 harg7 arg8 harg8 hc0 hc1 x0 x1 x2 x3 xs0 xs1 = k0_pay2 x3 (k0_pay7 x0 x1 x2 xs0) (k0_pay1 (k0_pay8 x0 x1 x2 xs1)) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz3, View.readCov_unit_zero (S := S64x1) _ hz2, View.readCov_unit_zero (S := S64x240) _ hz2]
  simp only [View.readAt_eq_ld, harg2.read_unread, harg3.read_unread, harg4.read_unread, harg5.read_unread, harg7.read_unread, harg8.read_unread, View.ld_unit_zero (S := S1x240x1024) hz3, View.ld_unit_zero (S := S64x240) hz2, View.ld_unit_zero (S := S64x1) hz2]

theorem sA0 (c : Dev nD) (i : grid0.Coords) (arg2 : Memref sig .tc .vmem S1x240x1024 .f32) (harg2 : arg2.IsWhole) (arg3 : Memref sig .tc .vmem S64x240 .f32) (harg3 : arg3.IsWhole) (arg4 : Memref sig .tc .vmem S64x1 .f32) (harg4 : arg4.IsWhole) (arg5 : Memref sig .tc .vmem S64x240 .f32) (harg5 : arg5.IsWhole) (arg6 : Memref sig .tc .vmem S1x64x240 .f32) (harg6 : arg6.IsWhole) (arg7 : Memref sig .tc .vmem S64x1 .f32) (harg7 : arg7.IsWhole) (arg8 : Memref sig .tc .vmem S64x240 .f32) (harg8 : arg8.IsWhole) (hc0 : cond0_0 i) (hc1 : ¬cond0_1 i)
    (x0 : Vec F S1x240x1024 .f32) (x1 : Vec F S64x240 .f32) (x2 : Vec F S64x1 .f32) (x3 : Vec F S64x240 .f32) :
    sout0_A_0 c i arg2 harg2 arg3 harg3 arg4 harg4 arg5 harg5 arg6 harg6 arg7 harg7 arg8 harg8 hc0 hc1 x0 x1 x2 x3 = k0_pay7 x0 x1 x2 (k0_pay3) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S64x1) hz2, View.readCov_unit_zero (S := S64x1) _ hz2]
  simp only [View.readAt_eq_ld, harg2.read_unread, harg3.read_unread, harg4.read_unread, harg5.read_unread, harg7.read_unread, harg8.read_unread, View.ld_unit_zero (S := S1x240x1024) hz3, View.ld_unit_zero (S := S64x240) hz2, View.ld_unit_zero (S := S64x1) hz2]

theorem sA1 (c : Dev nD) (i : grid0.Coords) (arg2 : Memref sig .tc .vmem S1x240x1024 .f32) (harg2 : arg2.IsWhole) (arg3 : Memref sig .tc .vmem S64x240 .f32) (harg3 : arg3.IsWhole) (arg4 : Memref sig .tc .vmem S64x1 .f32) (harg4 : arg4.IsWhole) (arg5 : Memref sig .tc .vmem S64x240 .f32) (harg5 : arg5.IsWhole) (arg6 : Memref sig .tc .vmem S1x64x240 .f32) (harg6 : arg6.IsWhole) (arg7 : Memref sig .tc .vmem S64x1 .f32) (harg7 : arg7.IsWhole) (arg8 : Memref sig .tc .vmem S64x240 .f32) (harg8 : arg8.IsWhole) (hc0 : cond0_0 i) (hc1 : ¬cond0_1 i)
    (x0 : Vec F S1x240x1024 .f32) (x1 : Vec F S64x240 .f32) (x2 : Vec F S64x1 .f32) (x3 : Vec F S64x240 .f32) :
    sout0_A_1 c i arg2 harg2 arg3 harg3 arg4 harg4 arg5 harg5 arg6 harg6 arg7 harg7 arg8 harg8 hc0 hc1 x0 x1 x2 x3 = k0_pay1 (k0_pay8 x0 x1 x2 (k0_pay4)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S64x240) hz2, View.readCov_unit_zero (S := S64x240) _ hz2]
  simp only [View.readAt_eq_ld, harg2.read_unread, harg3.read_unread, harg4.read_unread, harg5.read_unread, harg7.read_unread, harg8.read_unread, View.ld_unit_zero (S := S1x240x1024) hz3, View.ld_unit_zero (S := S64x240) hz2, View.ld_unit_zero (S := S64x1) hz2]

end Cert.KPieces

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibDotNT.lean ====
/-
  The matrix product whose right operand is contracted along its rows, on the extended reals, index by index.

  For a left operand `a : [M, K]` and a right operand `w : [N, K]` the entry (r, j) of `a · wᵀ` is the finite sum
  `∑ k, a (r, k) * w (j, k)`: row r of `a` against row j of `w`. A finite sum on the extended reals is a sum in a
  commutative monoid, so no order, grouping or tiling of it matters, and nothing here asks any entry to be finite.
  Both the vector unit's matrix product into a zero accumulator and the host's dot_general, with these dimension
  numbers, are this sum; a layer adds one bias entry per column, and two layers compose.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDotNT

open Idealize.ShloMosaic Idealize.ShloMosaic.ValueIdx

/-- Entry (r, j) of `a · wᵀ`: row r of `a : [M, K]` against row j of `w : [N, K]`. -/
def rowDot {M K N : ℕ} (a : (⟨2, ![M, K]⟩ : Shape).Idx → EReal) (w : (⟨2, ![N, K]⟩ : Shape).Idx → EReal) :
    (⟨2, ![M, N]⟩ : Shape).Idx → EReal :=
  fun i => ∑ k : Fin K, a (ix2 (i 0) k) * w (ix2 (i 1) k)

/-- The same at an index given by its coordinates. -/
theorem rowDot_ix2 {M K N : ℕ} (a : (⟨2, ![M, K]⟩ : Shape).Idx → EReal) (w : (⟨2, ![N, K]⟩ : Shape).Idx → EReal)
    (r : Fin M) (j : Fin N) : rowDot a w (ix2 r j) = ∑ k : Fin K, a (ix2 r k) * w (ix2 j k) := rfl

/-- An entry of the product reads one row of each operand: operands that agree on those rows give the same entry. -/
theorem rowDot_congr {M M' K N N' : ℕ} (a : (⟨2, ![M, K]⟩ : Shape).Idx → EReal) (w : (⟨2, ![N, K]⟩ : Shape).Idx → EReal)
    (a' : (⟨2, ![M', K]⟩ : Shape).Idx → EReal) (w' : (⟨2, ![N', K]⟩ : Shape).Idx → EReal)
    (r : Fin M) (j : Fin N) (r' : Fin M') (j' : Fin N')
    (ha : ∀ k : Fin K, a (ix2 r k) = a' (ix2 r' k)) (hw : ∀ k : Fin K, w (ix2 j k) = w' (ix2 j' k)) :
    rowDot a w (ix2 r j) = rowDot a' w' (ix2 r' j') := by
  rw [rowDot_ix2, rowDot_ix2]
  exact Finset.sum_congr rfl fun k _ => congrArg₂ (· * ·) (ha k) (hw k)

/-! ## The contraction index of an `[M, K] × [N, K]` product is `Fin K` -/

theorem tr_lhs0 (M K N : ℕ) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem tr_rhs0 (M K N : ℕ) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The sum over the product's contraction index, re-indexed by `Fin K`, is the row-against-row sum. -/
theorem tr_sum (M K N : ℕ) (x : (⟨2, ![M, K]⟩ : Shape).Idx → EReal) (w : (⟨2, ![N, K]⟩ : Shape).Idx → EReal)
    (i : (⟨2, ![M, N]⟩ : Shape).Idx) :
    ∑ q : (DotDims.transposedRhs M K N).contr.Idx,
        x ((DotDims.transposedRhs M K N).lhsIdx i q) * w ((DotDims.transposedRhs M K N).rhsIdx i q)
      = rowDot x w i := by
  unfold rowDot
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k)
      = ix2 (i 0) k :=
    funext fun a => Fin.ext (by
      match a with
      | ⟨0, _⟩ => exact tr_lhs0 M K N i _
      | ⟨1, _⟩ => exact ((DotDims.transposedRhs M K N).lhsIdx_val_of_single rfl i _).trans hk)
  have er : (DotDims.transposedRhs M K N).rhsIdx i ((contrEquiv1 (DotDims.transposedRhs M K N) K rfl rfl).symm k)
      = ix2 (i 1) k :=
    funext fun a => Fin.ext (by
      match a with
      | ⟨0, _⟩ => exact tr_rhs0 M K N i _
      | ⟨1, _⟩ => exact ((DotDims.transposedRhs M K N).rhsIdx_val_of_single rfl i _).trans hk)
  exact congrArg₂ (· * ·) (congrArg x el) (congrArg w er)

/-- A vector unit's matrix product with these dimension numbers into the zero accumulator, at an entry. -/
theorem matmul_tr {M K N : ℕ} {φ₁ φ₂ : FTy} (x : FVec Ideal ⟨2, ![M, K]⟩ φ₁) (w : FVec Ideal ⟨2, ![N, K]⟩ φ₂)
    (i : (⟨2, ![M, N]⟩ : Shape).Idx) :
    FloatOps.matmul (DotDims.transposedRhs M K N) none x w (constant (F := Ideal) ⟨2, ![M, N]⟩ .f32 0x00000000#32) i
      = rowDot x w i := by
  rw [Ideal.matmul_constant_zero_apply]
  exact tr_sum M K N x w i

/-- The host's dot_general of the same dimension numbers, at an entry. -/
theorem dotGeneral_tr {M K N : ℕ} (sched : HostSchedule) (x : (⟨2, ![M, K]⟩ : Shape).Idx → EReal)
    (w : (⟨2, ![N, K]⟩ : Shape).Idx → EReal) (i : (⟨2, ![M, N]⟩ : Shape).Idx) :
    FloatOps.dotGeneral (F := Ideal) (φ₁ := .f32) (φ₂ := .f32) (DotDims.transposedRhs M K N) none sched x w i
      = rowDot x w i := by
  rw [Ideal.dotGeneral_apply]
  exact tr_sum M K N x w i

/-! ## A layer, and two of them -/

/-- A layer `a · wᵀ + b`: the bias entry of column j added to every row's entry in that column. -/
def layer {M K N : ℕ} (a : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => rowDot a w i + b (ix1 (i 1))

theorem layer_ix2 {M K N : ℕ} (a : (⟨2, ![M, K]⟩ : Shape).Idx → EReal) (w : (⟨2, ![N, K]⟩ : Shape).Idx → EReal)
    (b : (⟨1, ![N]⟩ : Shape).Idx → EReal) (r : Fin M) (j : Fin N) :
    layer a w b (ix2 r j) = (∑ k : Fin K, a (ix2 r k) * w (ix2 j k)) + b (ix1 j) := rfl

/-- Two layers with no function between them: `(x · w₁ᵀ + b₁) · w₂ᵀ + b₂`. -/
def twoLayers {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) : (⟨2, ![B, M]⟩ : Shape).Idx → EReal :=
  layer (layer x w1 b1) w2 b2

/-- Entry (r, j) of two layers, written out: it reads row r of `x`, all of `w₁` and `b₁`, row j of `w₂` and entry j of `b₂`. -/
theorem twoLayers_ix2 {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) (r : Fin B) (j : Fin M) :
    twoLayers x w1 b1 w2 b2 (ix2 r j)
      = (∑ k : Fin K, ((∑ l : Fin M, x (ix2 r l) * w1 (ix2 k l)) + b1 (ix1 k)) * w2 (ix2 j k)) + b2 (ix1 j) := rfl

end Cert.LibDotNT

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.LibColumn.lean ====
/-
  A block read down its columns, on the extended reals.

  A vector unit's maximum over the FIRST axis of an `[a, n]` block is, at column `y`, the fold of `max` from the
  accumulator's value over the column's entries `src (k, y)` (the counterpart, for columns, of the maximum along a row);
  and a `[1, 1]` array spread over an `[a, b]` block reads its one entry at every position. Nothing here needs an entry to be
  finite.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibColumn

open Idealize.ShloMosaic Idealize.ShloMosaic.ValueIdx

/-- Rank 2, first axis reduced: the reduced index `y` with row `k` put back is `(k, y)`. -/
theorem lift_col2 {a n : ℕ} (h : (⟨2, ![a, n]⟩ : Shape).Reduces [0] (⟨1, ![n]⟩ : Shape)) (y : Fin n)
    (k : Fin ((⟨2, ![a, n]⟩ : Shape).size 0)) : h.lift (ix1 y) k = ix2 (⟨k.val, k.isLt⟩ : Fin a) y := by
  funext c; apply Fin.ext
  fin_cases c <;> rfl

/-- The vector unit's maximum over the first axis of an `[a, n]` block, at column `y`: the fold of `max` from the
    accumulator's value over the column. -/
theorem multiReduction_max_col {a n : ℕ} (src : FVec Ideal ⟨2, ![a, n]⟩ .f32) (acc : BitVec 32)
    (h : (⟨2, ![a, n]⟩ : Shape).Reduces [0] (⟨1, ![n]⟩ : Shape)) (hφ : FKind.Formats .f32)
    (hacc : acc = FKind.maximumf.neutral .f32 hφ) (y : Fin n) :
    multiReduction .maximumf [0] ⟨1, ![n]⟩ src acc h hφ hacc (ix1 y)
      = (Finset.univ : Finset (Fin a)).fold max (Ideal.ofBits .f32 acc) fun k : Fin a => src (ix2 k y) := by
  rw [Ideal.multiReduction_maximumf_single]
  have hf : (src ∘ h.lift (ix1 y)) = fun k : Fin a => src (ix2 k y) :=
    funext fun k => congrArg src (lift_col2 h y k)
  exact congrArg (fun f => Finset.fold max (Ideal.ofBits .f32 acc) f (Finset.univ : Finset (Fin a))) hf

/-- A `[1, 1]` array spread over `[p, q]` reads its one entry everywhere. -/
theorem broadcastTo_11_ab_apply {α : Type} {p q : ℕ} (v : (⟨2, ![1, 1]⟩ : Shape).Idx → α)
    (h : (⟨2, ![1, 1]⟩ : Shape).Broadcasts ⟨2, ![p, q]⟩) (k : Fin p) (c : Fin q) :
    broadcastTo ⟨2, ![p, q]⟩ v h (ix2 k c) = v (ix2 (0 : Fin 1) (0 : Fin 1)) := by
  refine broadcastTo_apply v h (ix2 k c) (ix2 (0 : Fin 1) (0 : Fin 1)) fun ax => ?_
  match ax with
  | ⟨0, _⟩ => rfl
  | ⟨1, _⟩ => rfl

end Cert.LibColumn

end
-- ==== Proof.KPay.lean ====
/-
  The arithmetic of one grid point, read at an index on the extended reals.

  At a point the body holds a stretch of 1024 pixels of one image as a [1, 240, 1024] block `x0`, the weight matrix
  `x1`, the bias as a column `x2`, the centres `x3`. Column `y` of the stretch has the 64 logits
  `∑ c, x1 (k, c) · x0 (0, c, y) + x2 (k, 0)`; the assignments are their softmax down the column; the first carried
  buffer gains the row sums of the assignments, the second the products assignment × channel summed over the stretch;
  and at an image's last stretch the residual `a (k, 0) · x3 (k, c) − w (k, c)` is divided twice, by the larger of a
  row's Euclidean norm and ε and by the larger of the whole block's Euclidean norm and ε.
-/
import proofs.«149352_j1425929142291_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«149352_j1425929142291_1_alg».proof.Proof.LibDense
import proofs.«149352_j1425929142291_1_alg».proof.Proof.LibDotNT
import proofs.«149352_j1425929142291_1_alg».proof.Proof.LibAxisSum
import proofs.«149352_j1425929142291_1_alg».proof.Proof.LibSoftmaxRow
import proofs.«149352_j1425929142291_1_alg».proof.Proof.LibColumn
import proofs.«149352_j1425929142291_1_alg».proof.Proof.Spec

noncomputable section

namespace Cert.KPay

open Idealize.ShloMosaic Idealize.ShloMosaic.ValueIdx Cert.KernelIdeal Cert.KernelIdeal.Gen Cert.LibSoftmaxRow

variable (x0 : Vec Ideal S1x240x1024 .f32) (x1 : Vec Ideal S64x240 .f32) (x2 : Vec Ideal S64x1 .f32)

/-! ## The logits and the assignments of a stretch -/

/-- The stretch as a [240, 1024] array reads the block at its one leading coordinate. -/
theorem pay5_apply (c : Fin 240) (y : Fin 1024) : k0_pay5 (F := Ideal) x0 (ix2 c y) = x0 (ix3 (0 : Fin 1) c y) :=
  shapeCast_1ab_ab_apply (a := 240) (b := 1024) x0 shapeCasts_S1x240x1024_S240x1024 c y

/-- The logit of cluster `k` at column `y` of the stretch. -/
def blkLogit (y : Fin 1024) (k : Fin 64) : EReal :=
  (∑ c : Fin 240, x1 (ix2 k c) * x0 (ix3 (0 : Fin 1) c y)) + x2 (ix2 k (0 : Fin 1))

/-- The logits as the body computes them: the matrix product into a zero accumulator plus the bias column spread over the row. -/
def lg : FVec Ideal S64x1024 .f32 :=
  addf (matmul dot_S64x240_S240x1024_S64x1024_1_0_0_1_n_n none (truncf .bf16 x1 bitsLt_bf16_f32) (k0_pay5 x0)
      (constant S64x1024 .f32 0x00000000#32))
    (broadcastTo S64x1024 (shapeCast S64x1 x2 shapeCasts_S64x1_S64x1) broadcasts_S64x1_S64x1024)

theorem lg_apply (k : Fin 64) (y : Fin 1024) : lg x0 x1 x2 (ix2 k y) = blkLogit x0 x1 x2 y k := by
  unfold lg blkLogit
  refine congrArg₂ (· + ·) ?_ ?_
  · refine (Cert.LibDense.matmul_plain (M := 64) (K := 240) (N := 1024) (truncf .bf16 x1 bitsLt_bf16_f32) (k0_pay5 x0) (ix2 k y)).trans ?_
    exact Finset.sum_congr rfl fun c _ => congrArg₂ (· * ·) rfl (pay5_apply x0 c y)
  · exact (broadcastTo_a1_ab_apply _ broadcasts_S64x1_S64x1024 k y).trans (congrFun (shapeCast_self x2 shapeCasts_S64x1_S64x1) _)

/-- The column maxima, the shifted exponentials and their column sums, as the body computes them. -/
def mx : FVec Ideal S1024 .f32 :=
  multiReduction .maximumf [0] S1024 (lg x0 x1 x2) 0xFF800000#32 reduces_S64x1024_S1024 (.inl rfl) rfl
def ex : FVec Ideal S64x1024 .f32 :=
  exp (subf (lg x0 x1 x2) (broadcastTo S64x1024 (shapeCast S1x1024 (mx x0 x1 x2) shapeCasts_S1024_S1x1024) broadcasts_S1x1024_S64x1024))
def den : FVec Ideal S1024 .f32 :=
  multiReduction .add [0] S1024 (ex x0 x1 x2) 0x00000000#32 reduces_S64x1024_S1024 (.inl rfl) rfl

theorem pay6_eq : k0_pay6 (F := Ideal) x0 x1 x2
    = divf (ex x0 x1 x2) (broadcastTo S64x1024 (shapeCast S1x1024 (den x0 x1 x2) shapeCasts_S1024_S1x1024) broadcasts_S1x1024_S64x1024) := rfl

theorem mx_apply (y : Fin 1024) :
    mx x0 x1 x2 (ix1 y) = rowMax Cert.Desc.negInf fun k : Fin 64 => lg x0 x1 x2 (ix2 k y) :=
  Cert.LibColumn.multiReduction_max_col (a := 64) (n := 1024) (lg x0 x1 x2) 0xFF800000#32 reduces_S64x1024_S1024 (.inl rfl) rfl y

theorem ex_apply (k : Fin 64) (y : Fin 1024) :
    ex x0 x1 x2 (ix2 k y) = expShift Cert.Desc.negInf (fun k' : Fin 64 => lg x0 x1 x2 (ix2 k' y)) k := by
  show Ideal.exp (lg x0 x1 x2 (ix2 k y) - broadcastTo S64x1024 (shapeCast S1x1024 (mx x0 x1 x2) shapeCasts_S1024_S1x1024) broadcasts_S1x1024_S64x1024 (ix2 k y)) = _
  exact congrArg (fun z => Ideal.exp (lg x0 x1 x2 (ix2 k y) - z))
    ((Cert.LibDense.bias_row (n := 64) (d := 1024) (mx x0 x1 x2) shapeCasts_S1024_S1x1024 broadcasts_S1x1024_S64x1024 (ix2 k y)).trans (mx_apply x0 x1 x2 y))

/-- An assignment of the stretch: the softmax of column `y`'s logits at cluster `k`. -/
theorem pay6_apply (k : Fin 64) (y : Fin 1024) :
    k0_pay6 (F := Ideal) x0 x1 x2 (ix2 k y) = softmax Cert.Desc.negInf (blkLogit x0 x1 x2 y) k := by
  rw [pay6_eq]
  have hl : (fun k' : Fin 64 => lg x0 x1 x2 (ix2 k' y)) = blkLogit x0 x1 x2 y := funext fun k' => lg_apply x0 x1 x2 k' y
  rw [← hl]
  show Ideal.div (ex x0 x1 x2 (ix2 k y)) (broadcastTo S64x1024 (shapeCast S1x1024 (den x0 x1 x2) shapeCasts_S1024_S1x1024) broadcasts_S1x1024_S64x1024 (ix2 k y)) = _
  refine congrArg₂ Ideal.div (ex_apply x0 x1 x2 k y) ?_
  refine (Cert.LibDense.bias_row (n := 64) (d := 1024) (den x0 x1 x2) shapeCasts_S1024_S1x1024 broadcasts_S1x1024_S64x1024 (ix2 k y)).trans ?_
  refine (Cert.LibAxisSum.sum_first (n := 64) (d := 1024) (ex x0 x1 x2) 0x00000000#32 reduces_S64x1024_S1024 (.inl rfl) rfl y).trans ?_
  exact Finset.sum_congr rfl fun k' _ => ex_apply x0 x1 x2 k' y

/-! ## What the two carried buffers gain -/

/-- The zero blocks the first stretch of an image starts from. -/
theorem pay3_apply (i : S64x1.Idx) : k0_pay3 (F := Ideal) i = 0 := Ideal.ofBits_zero_f32
theorem pay4_apply (i : S64x240.Idx) : k0_pay4 (F := Ideal) i = 0 := Ideal.ofBits_zero_f32

/-- The store into the second carried buffer writes the sum unchanged. -/
theorem pay1_eq (v : FVec Ideal S64x240 .f32) : k0_pay1 (F := Ideal) v = v := shapeCast_self v shapeCasts_S64x240_S64x240

/-- The first carried buffer gains the row sums of the stretch's assignments. -/
theorem pay7_apply (xs0 : Vec Ideal S64x1 .f32) (k : Fin 64) (u : Fin 1) :
    k0_pay7 (F := Ideal) x0 x1 x2 xs0 (ix2 k u) = xs0 (ix2 k u) + ∑ y : Fin 1024, k0_pay6 (F := Ideal) x0 x1 x2 (ix2 k y) := by
  show shapeCast S64x1 (addf xs0 (shapeCast S64x1 (multiReduction .add [1] S64 (k0_pay6 (F := Ideal) x0 x1 x2) 0x00000000#32 reduces_S64x1024_S64 (.inl rfl) rfl) shapeCasts_S64_S64x1)) shapeCasts_S64x1_S64x1 (ix2 k u) = _
  refine (congrFun (shapeCast_self _ shapeCasts_S64x1_S64x1) _).trans ?_
  exact congrArg (xs0 (ix2 k u) + ·)
    ((shapeCast_a_a1_apply (a := 64) _ shapeCasts_S64_S64x1 k u).trans
      (Cert.LibAxisSum.sum_last (n := 64) (d := 1024) (k0_pay6 (F := Ideal) x0 x1 x2) 0x00000000#32 reduces_S64x1024_S64 (.inl rfl) rfl k))

/-- The second gains, at cluster `k` and channel `c`, the assignments against the channel's values over the stretch. -/
theorem pay8_apply (xs1 : Vec Ideal S64x240 .f32) (k : Fin 64) (c : Fin 240) :
    k0_pay8 (F := Ideal) x0 x1 x2 xs1 (ix2 k c)
      = xs1 (ix2 k c) + ∑ y : Fin 1024, k0_pay6 (F := Ideal) x0 x1 x2 (ix2 k y) * x0 (ix3 (0 : Fin 1) c y) := by
  show xs1 (ix2 k c) + matmul dot_S64x1024_S240x1024_S64x240_1_1_0_0_n_n none (truncf .bf16 (k0_pay6 (F := Ideal) x0 x1 x2) bitsLt_bf16_f32) (k0_pay5 x0) (constant S64x240 .f32 0x00000000#32) (ix2 k c) = _
  refine congrArg (xs1 (ix2 k c) + ·) ?_
  refine (Cert.LibDotNT.matmul_tr (M := 64) (K := 1024) (N := 240) (truncf .bf16 (k0_pay6 (F := Ideal) x0 x1 x2) bitsLt_bf16_f32) (k0_pay5 x0) (ix2 k c)).trans ?_
  exact Finset.sum_congr rfl fun y _ => congrArg₂ (· * ·) rfl (pay5_apply x0 c y)

/-! ## The two divisions of an image's last stretch -/

variable (x3 : Vec Ideal S64x240 .f32) (a : Vec Ideal S64x1 .f32) (w : Vec Ideal S64x240 .f32)

/-- The residual, a row's divisor, the row divided, the block's divisor: the block-level counterparts of the descriptor's. -/
def bResid (k : Fin 64) (c : Fin 240) : EReal := a (ix2 k (0 : Fin 1)) * x3 (ix2 k c) - w (ix2 k c)
def bRowNorm (k : Fin 64) : EReal := max (Ideal.sqrt (∑ c : Fin 240, bResid x3 a w k c * bResid x3 a w k c)) Cert.Desc.eps
def bIntra (k : Fin 64) (c : Fin 240) : EReal := Ideal.div (bResid x3 a w k c) (bRowNorm x3 a w k)
def bTotal : EReal := max (Ideal.sqrt (∑ k : Fin 64, ∑ c : Fin 240, bIntra x3 a w k c * bIntra x3 a w k c)) Cert.Desc.eps

/-- The same values as the body computes them. -/
def vResid : FVec Ideal S64x240 .f32 :=
  subf (mulf (broadcastTo S64x240 a broadcasts_S64x1_S64x240) (shapeCast S64x240 x3 shapeCasts_S64x240_S64x240)) w
def vRowNorm : FVec Ideal S64x1 .f32 :=
  maximumf (sqrt (shapeCast S64x1 (multiReduction .add [1] S64 (mulf (vResid x3 a w) (vResid x3 a w)) 0x00000000#32 reduces_S64x240_S64 (.inl rfl) rfl) shapeCasts_S64_S64x1))
    (broadcast S64x1 (Scalar.ofBits .f32 0x2B8CBCCC#32))
def vIntra : FVec Ideal S64x240 .f32 := divf (vResid x3 a w) (broadcastTo S64x240 (vRowNorm x3 a w) broadcasts_S64x1_S64x240)
def vRowSq : FVec Ideal S64x1 .f32 :=
  shapeCast S64x1 (multiReduction .add [1] S64 (mulf (vIntra x3 a w) (vIntra x3 a w)) 0x00000000#32 reduces_S64x240_S64 (.inl rfl) rfl) shapeCasts_S64_S64x1
def vTotal : FVec Ideal S1x1 .f32 :=
  maximumf (sqrt (shapeCast S1x1 (multiReduction .add [0] S1 (vRowSq x3 a w) 0x00000000#32 reduces_S64x1_S1 (.inl rfl) rfl) shapeCasts_S1_S1x1))
    (broadcast S1x1 (Scalar.ofBits .f32 0x2B8CBCCC#32))

theorem pay2_eq : k0_pay2 (F := Ideal) x3 a w
    = shapeCast S1x64x240 (divf (vIntra x3 a w) (broadcastTo S64x240 (vTotal x3 a w) broadcasts_S1x1_S64x240)) shapeCasts_S64x240_S1x64x240 := rfl

theorem vResid_apply (k : Fin 64) (c : Fin 240) : vResid x3 a w (ix2 k c) = bResid x3 a w k c := by
  show broadcastTo S64x240 a broadcasts_S64x1_S64x240 (ix2 k c) * shapeCast S64x240 x3 shapeCasts_S64x240_S64x240 (ix2 k c) - w (ix2 k c) = _
  unfold bResid
  exact congrArg₂ (fun p q => p * q - w (ix2 k c)) (broadcastTo_a1_ab_apply a broadcasts_S64x1_S64x240 k c)
    (congrFun (shapeCast_self x3 shapeCasts_S64x240_S64x240) _)

theorem vRowNorm_apply (k : Fin 64) (u : Fin 1) : vRowNorm x3 a w (ix2 k u) = bRowNorm x3 a w k := by
  show max (Ideal.sqrt (shapeCast S64x1 (multiReduction .add [1] S64 (mulf (vResid x3 a w) (vResid x3 a w)) 0x00000000#32 reduces_S64x240_S64 (.inl rfl) rfl) shapeCasts_S64_S64x1 (ix2 k u))) Cert.Desc.eps = _
  unfold bRowNorm
  refine congrArg (fun z => max (Ideal.sqrt z) Cert.Desc.eps) ?_
  refine (shapeCast_a_a1_apply (a := 64) _ shapeCasts_S64_S64x1 k u).trans ?_
  refine (Cert.LibAxisSum.sum_last (n := 64) (d := 240) (mulf (vResid x3 a w) (vResid x3 a w)) 0x00000000#32 reduces_S64x240_S64 (.inl rfl) rfl k).trans ?_
  exact Finset.sum_congr rfl fun c _ => congrArg₂ (· * ·) (vResid_apply x3 a w k c) (vResid_apply x3 a w k c)

theorem vIntra_apply (k : Fin 64) (c : Fin 240) : vIntra x3 a w (ix2 k c) = bIntra x3 a w k c := by
  show Ideal.div (vResid x3 a w (ix2 k c)) (broadcastTo S64x240 (vRowNorm x3 a w) broadcasts_S64x1_S64x240 (ix2 k c)) = _
  unfold bIntra
  exact congrArg₂ Ideal.div (vResid_apply x3 a w k c)
    ((broadcastTo_a1_ab_apply (vRowNorm x3 a w) broadcasts_S64x1_S64x240 k c).trans (vRowNorm_apply x3 a w k 0))

theorem vRowSq_apply (k : Fin 64) (u : Fin 1) : vRowSq x3 a w (ix2 k u) = ∑ c : Fin 240, bIntra x3 a w k c * bIntra x3 a w k c := by
  unfold vRowSq
  refine (shapeCast_a_a1_apply (a := 64) _ shapeCasts_S64_S64x1 k u).trans ?_
  refine (Cert.LibAxisSum.sum_last (n := 64) (d := 240) (mulf (vIntra x3 a w) (vIntra x3 a w)) 0x00000000#32 reduces_S64x240_S64 (.inl rfl) rfl k).trans ?_
  exact Finset.sum_congr rfl fun c _ => congrArg₂ (· * ·) (vIntra_apply x3 a w k c) (vIntra_apply x3 a w k c)

theorem vTotal_apply (u v : Fin 1) : vTotal x3 a w (ix2 u v) = bTotal x3 a w := by
  show max (Ideal.sqrt (shapeCast S1x1 (multiReduction .add [0] S1 (vRowSq x3 a w) 0x00000000#32 reduces_S64x1_S1 (.inl rfl) rfl) shapeCasts_S1_S1x1 (ix2 u v))) Cert.Desc.eps = _
  unfold bTotal
  refine congrArg (fun z => max (Ideal.sqrt z) Cert.Desc.eps) ?_
  refine (shapeCast_a_a1_apply (a := 1) _ shapeCasts_S1_S1x1 u v).trans ?_
  refine (Cert.LibAxisSum.sum_first (n := 64) (d := 1) (vRowSq x3 a w) 0x00000000#32 reduces_S64x1_S1 (.inl rfl) rfl u).trans ?_
  exact Finset.sum_congr rfl fun k _ => vRowSq_apply x3 a w k u

/-- The output block of an image's last stretch, at cluster `k` and channel `c`. -/
theorem pay2_apply (u : Fin 1) (k : Fin 64) (c : Fin 240) :
    k0_pay2 (F := Ideal) x3 a w (ix3 u k c) = Ideal.div (bIntra x3 a w k c) (bTotal x3 a w) := by
  rw [pay2_eq]
  refine (shapeCast_ab_1ab_apply (a := 64) (b := 240) _ shapeCasts_S64x240_S1x64x240 u k c).trans ?_
  show Ideal.div (vIntra x3 a w (ix2 k c)) (broadcastTo S64x240 (vTotal x3 a w) broadcasts_S1x1_S64x240 (ix2 k c)) = _
  exact congrArg₂ Ideal.div (vIntra_apply x3 a w k c)
    ((Cert.LibColumn.broadcastTo_11_ab_apply (vTotal x3 a w) broadcasts_S1x1_S64x240 k c).trans (vTotal_apply x3 a w 0 0))

/-! ## The same, for a stretch that is stretch `j` of image `b` -/

section Stretch

open Cert.Desc

variable (X : FeatT) (W : WeightT) (Bv : BiasT) (Cl : CentreT) (b j : ℕ)

theorem blkLogit_sem (h0 : ∀ (c : Fin 240) (y : Fin 1024), x0 (ix3 (0 : Fin 1) c y) = px X b (j * 1024 + y.val) c) (h1 : ∀ (k : Fin 64) (c : Fin 240), x1 (ix2 k c) = W (ix2 k c)) (h2 : ∀ k : Fin 64, x2 (ix2 k (0 : Fin 1)) = Bv (ix1 k)) (y : Fin 1024) :
    blkLogit x0 x1 x2 y = logit X W Bv b (j * 1024 + y.val) := by
  funext k
  unfold blkLogit logit
  rw [h2 k]
  refine congrArg (· + Bv (ix1 k)) (Finset.sum_congr rfl fun c _ => ?_)
  rw [h1 k c, h0 c y, mul_comm]

theorem pay6_sem (h0 : ∀ (c : Fin 240) (y : Fin 1024), x0 (ix3 (0 : Fin 1) c y) = px X b (j * 1024 + y.val) c) (h1 : ∀ (k : Fin 64) (c : Fin 240), x1 (ix2 k c) = W (ix2 k c)) (h2 : ∀ k : Fin 64, x2 (ix2 k (0 : Fin 1)) = Bv (ix1 k)) (k : Fin 64) (y : Fin 1024) :
    k0_pay6 (F := Ideal) x0 x1 x2 (ix2 k y) = asg X W Bv b (j * 1024 + y.val) k := by
  rw [pay6_apply, blkLogit_sem x0 x1 x2 X W Bv b j h0 h1 h2 y]
  rfl

theorem pay7_sem (h0 : ∀ (c : Fin 240) (y : Fin 1024), x0 (ix3 (0 : Fin 1) c y) = px X b (j * 1024 + y.val) c) (h1 : ∀ (k : Fin 64) (c : Fin 240), x1 (ix2 k c) = W (ix2 k c)) (h2 : ∀ k : Fin 64, x2 (ix2 k (0 : Fin 1)) = Bv (ix1 k)) (xs0 : Vec Ideal S64x1 .f32) (k : Fin 64) (u : Fin 1) :
    k0_pay7 (F := Ideal) x0 x1 x2 xs0 (ix2 k u) = xs0 (ix2 k u) + tileMass X W Bv b j k := by
  rw [pay7_apply]
  unfold tileMass
  exact congrArg (xs0 (ix2 k u) + ·) (Finset.sum_congr rfl fun y _ => pay6_sem x0 x1 x2 X W Bv b j h0 h1 h2 k y)

theorem pay8_sem (h0 : ∀ (c : Fin 240) (y : Fin 1024), x0 (ix3 (0 : Fin 1) c y) = px X b (j * 1024 + y.val) c) (h1 : ∀ (k : Fin 64) (c : Fin 240), x1 (ix2 k c) = W (ix2 k c)) (h2 : ∀ k : Fin 64, x2 (ix2 k (0 : Fin 1)) = Bv (ix1 k)) (xs1 : Vec Ideal S64x240 .f32) (k : Fin 64) (c : Fin 240) :
    k0_pay8 (F := Ideal) x0 x1 x2 xs1 (ix2 k c) = xs1 (ix2 k c) + tileW X W Bv b j k c := by
  rw [pay8_apply]
  unfold tileW
  exact congrArg (xs1 (ix2 k c) + ·)
    (Finset.sum_congr rfl fun y _ => congrArg₂ (· * ·) (pay6_sem x0 x1 x2 X W Bv b j h0 h1 h2 k y) (h0 c y))

theorem pay2_sem (hx : ∀ (k : Fin 64) (c : Fin 240), x3 (ix2 k c) = Cl (ix3 (0 : Fin 1) k c))
    (ha : ∀ k : Fin 64, a (ix2 k (0 : Fin 1)) = mass X W Bv b k) (hw : ∀ (k : Fin 64) (c : Fin 240), w (ix2 k c) = wsum X W Bv b k c)
    (u : Fin 1) (k : Fin 64) (c : Fin 240) :
    k0_pay2 (F := Ideal) x3 a w (ix3 u k c) = desc X W Bv Cl b k c := by
  have hr : bResid x3 a w = resid X W Bv Cl b := funext fun k => funext fun c => by
    unfold bResid resid; rw [ha k, hx k c, hw k c]
  have hn : bRowNorm x3 a w = rowNorm X W Bv Cl b := funext fun k => by unfold bRowNorm rowNorm; rw [hr]
  have hi : bIntra x3 a w = intra X W Bv Cl b := funext fun k => funext fun c => by unfold bIntra intra; rw [hr, hn]
  have ht : bTotal x3 a w = total X W Bv Cl b := by unfold bTotal total; rw [hi]
  rw [pay2_apply, hi, ht]
  rfl

end Stretch

end Cert.KPay

end
-- ==== Proof.KBlocks.lean ====
/-
  What the region finds in its windows' arrays, and the block each window hands the body at a point.

  The host lines before the region only re-shape: the feature map [32, 240, 64, 64] becomes [32, 240, 4096] (pixel
  `n` is row `n / 64`, column `n % 64`), the bias [64] a column [64, 1], the centres [1, 64, 240] a matrix. Point `t` of
  the 32 × 4 grid is stretch `t % 4` of image `t / 4`: the first window's block there holds the 240 channels of the
  pixels `(t % 4) · 1024 + y`, the other three windows' blocks are their whole arrays at every point.
-/
import proofs.«149352_j1425929142291_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic
import proofs.«149352_j1425929142291_1_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KBlocks

open Cert.KernelIdeal Cert.KernelIdeal.Gen Cert.Desc

variable (m : (ℓ : Loc nD τ sig) → Buf (Elt Ideal) ℓ)

/-- The four argument arrays as launched, as functions on their index sets. -/
abbrev aX (c : Dev nD) : FeatT := m ((c : Thread nD τ).loc main_arg0)
abbrev aW (c : Dev nD) : WeightT := m ((c : Thread nD τ).loc main_arg1)
abbrev aB (c : Dev nD) : BiasT := m ((c : Thread nD τ).loc main_arg2)
abbrev aC (c : Dev nD) : CentreT := m ((c : Thread nD τ).loc main_arg3)

theorem V_v0 (c : Dev nD) : (V m c main_v0 : S32x240x4096.Idx → EReal)
    = shapeCast S32x240x4096 (aX m c) shapeCasts_S32x240x64x64_S32x240x4096 := by
  show StableHlo.after hostOps0 (fun b => m (c, b)) (Proc.devRef .tc main_v0) = _
  after_results; rfl

theorem V_v1 (c : Dev nD) : (V m c main_v1 : S64x1.Idx → EReal)
    = shapeCast S64x1 (aB m c) shapeCasts_S64_S64x1 := by
  show StableHlo.after hostOps0 (fun b => m (c, b)) (Proc.devRef .tc main_v1) = _
  after_results; rfl

theorem V_v2 (c : Dev nD) : (V m c main_v2 : S64x240.Idx → EReal)
    = shapeCast S64x240 (aC m c) shapeCasts_S1x64x240_S64x240 := by
  show StableHlo.after hostOps0 (fun b => m (c, b)) (Proc.devRef .tc main_v2) = _
  after_results; rfl

theorem idx0 : ∀ t : Fin cfg0.N, win0_0.index t 0 = t.val / 4 ∧ win0_0.index t 1 = 0 ∧ win0_0.index t 2 = t.val % 4 :=
  (by decide +kernel : ∀ t : Fin grid0.N, win0_0.index t 0 = t.val / 4 ∧ win0_0.index t 1 = 0 ∧ win0_0.index t 2 = t.val % 4)

theorem blk0 (c : Dev nD) (t : Fin cfg0.N) (cc : Fin 240) (y : Fin 1024) :
    (iblk m c 0 t : Vec Ideal S1x240x1024 .f32) (ix3 (0 : Fin 1) cc y) = px (aX m c) (t.val / 4) (t.val % 4 * 1024 + y.val) cc := by
  unfold iblk
  rw [View.read_apply]
  show V m c main_v0 _ = _
  rw [V_v0]
  have ht : t.val < 128 := lt_of_lt_of_eq t.isLt (show cfg0.N = 128 from N_0)
  unfold px
  refine shapeCast_apply _ _ _ _ ?_
  rw [Shape.rowMajor_val_four, Shape.rowMajor_val_three]
  show (((t.val / 4 % 32) * 240 + cc.val) * 64 + ((t.val % 4 * 1024 + y.val) / 64 % 64)) * 64 + (t.val % 4 * 1024 + y.val) % 64
    = ((win0_0.index t 0 * 1 + 1 * 0) * 240 + (win0_0.index t 1 * 240 + 1 * cc.val)) * 4096 + (win0_0.index t 2 * 1024 + 1 * y.val)
  obtain ⟨e0, e1, e2⟩ := idx0 t
  rw [e0, e1, e2]
  have hy := y.isLt
  omega

theorem idx123 : ∀ t : Fin cfg0.N, (win0_1.index t 0 = 0 ∧ win0_1.index t 1 = 0) ∧ (win0_2.index t 0 = 0 ∧ win0_2.index t 1 = 0)
      ∧ (win0_3.index t 0 = 0 ∧ win0_3.index t 1 = 0) :=
  (by decide +kernel : ∀ t : Fin grid0.N, (win0_1.index t 0 = 0 ∧ win0_1.index t 1 = 0) ∧ (win0_2.index t 0 = 0 ∧ win0_2.index t 1 = 0)
      ∧ (win0_3.index t 0 = 0 ∧ win0_3.index t 1 = 0))

theorem blk1 (c : Dev nD) (t : Fin cfg0.N) (k : Fin 64) (cc : Fin 240) :
    (iblk m c 1 t : Vec Ideal S64x240 .f32) (ix2 k cc) = aW m c (ix2 k cc) := by
  unfold iblk
  rw [View.read_apply]
  show V m c main_arg1 _ = _
  rw [V_main_arg1]
  refine congrArg (aW m c) (funext fun a => Fin.ext ?_)
  obtain ⟨⟨e0, e1⟩, -, -⟩ := idx123 t
  match a with
  | ⟨0, _⟩ => show win0_1.index t 0 * 64 + 1 * k.val = k.val; rw [e0]; omega
  | ⟨1, _⟩ => show win0_1.index t 1 * 240 + 1 * cc.val = cc.val; rw [e1]; omega

theorem blk2 (c : Dev nD) (t : Fin cfg0.N) (k : Fin 64) :
    (iblk m c 2 t : Vec Ideal S64x1 .f32) (ix2 k (0 : Fin 1)) = aB m c (ix1 k) := by
  unfold iblk
  rw [View.read_apply]
  show V m c main_v1 _ = _
  rw [V_v1]
  refine shapeCast_apply _ _ _ _ ?_
  rw [Shape.rowMajor_val_one, Shape.rowMajor_val_two]
  show k.val = (win0_2.index t 0 * 64 + 1 * k.val) * 1 + (win0_2.index t 1 * 1 + 1 * 0)
  obtain ⟨-, ⟨e0, e1⟩, -⟩ := idx123 t
  rw [e0, e1]; omega

theorem blk3 (c : Dev nD) (t : Fin cfg0.N) (k : Fin 64) (cc : Fin 240) :
    (iblk m c 3 t : Vec Ideal S64x240 .f32) (ix2 k cc) = aC m c (ix3 (0 : Fin 1) k cc) := by
  unfold iblk
  rw [View.read_apply]
  show V m c main_v2 _ = _
  rw [V_v2]
  refine shapeCast_apply _ _ _ _ ?_
  rw [Shape.rowMajor_val_three, Shape.rowMajor_val_two]
  show (0 * 64 + k.val) * 240 + cc.val = (win0_3.index t 0 * 64 + 1 * k.val) * 240 + (win0_3.index t 1 * 240 + 1 * cc.val)
  obtain ⟨-, -, ⟨e0, e1⟩⟩ := idx123 t
  rw [e0, e1]; omega

end Cert.KBlocks

end
-- ==== Proof.KInv.lean ====
/-
  What the kernel's two carried buffers and its output block hold, point by point.

  The grid walks the images one after the other, four stretches of 1024 pixels each. The body's first branch zeroes the
  two carried buffers at an image's first stretch; every stretch adds its assignments' row sums to the first buffer and
  its assignment × channel products to the second; so after stretch `j` of image `b` they hold the mass and the weighted
  sums accumulated over the stretches `0 … j` — by induction along the grid, never by enumerating it. At the fourth
  stretch these are the sums over all 4096 pixels, and the body's last branch writes the image's descriptor.
-/
import proofs.«149352_j1425929142291_1_alg».proof.Proof.KPieces
import proofs.«149352_j1425929142291_1_alg».proof.Proof.KPay
import proofs.«149352_j1425929142291_1_alg».proof.Proof.KBlocks

set_option maxRecDepth 16384

noncomputable section

open Idealize.ShloMosaic Idealize.ShloMosaic.TcCoe Idealize.SL.Sem Idealize.ShloMosaic.ValueIdx
open Idealize.ShloMosaic.Pipeline (Dat)

namespace Cert.KInv

open Cert.KernelIdeal Cert.KernelIdeal.Gen Cert.Desc Cert.KBlocks

variable (m : (ℓ : Loc nD τ sig) → Buf (Elt Ideal) ℓ) (c : Dev nD)

/-! ## What the carried buffers and the output block hold after a point, as the body's arithmetic -/

theorem ptA (t : Fin cfg0.N) (h0 : t.val % 4 = 0) (h1 : ¬t.val % 4 = 3) :
    (outsAt0 m c t.val t.isLt).2.1 = k0_pay7 (iblk m c 0 t) (iblk m c 1 t) (iblk m c 2 t) (k0_pay3 (F := Ideal))
    ∧ (outsAt0 m c t.val t.isLt).2.2 = k0_pay1 (k0_pay8 (iblk m c 0 t) (iblk m c 1 t) (iblk m c 2 t) (k0_pay4 (F := Ideal))) := by
  rw [outsAt0_A m c t h0 h1]
  exact ⟨Cert.KPieces.sA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t),
    Cert.KPieces.sA1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)⟩

theorem ptB (t : Fin cfg0.N) (h0 : ¬t.val % 4 = 0) (h1 : ¬t.val % 4 = 3) :
    (outsAt0 m c t.val t.isLt).2.1 = k0_pay7 (iblk m c 0 t) (iblk m c 1 t) (iblk m c 2 t) (outsAt0 m c (t.val - 1) (Nat.lt_of_le_of_lt (Nat.sub_le _ _) t.isLt)).2.1
    ∧ (outsAt0 m c t.val t.isLt).2.2 = k0_pay1 (k0_pay8 (iblk m c 0 t) (iblk m c 1 t) (iblk m c 2 t) (outsAt0 m c (t.val - 1) (Nat.lt_of_le_of_lt (Nat.sub_le _ _) t.isLt)).2.2) := by
  rw [outsAt0_B m c t h0 h1]
  exact ⟨Cert.KPieces.sB0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    Cert.KPieces.sB1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩

set_option maxHeartbeats 2000000 in
theorem ptC (t : Fin cfg0.N) (h0 : ¬t.val % 4 = 0) (h1 : t.val % 4 = 3) :
    (outsAt0 m c t.val t.isLt).2.1 = k0_pay7 (iblk m c 0 t) (iblk m c 1 t) (iblk m c 2 t) (outsAt0 m c (t.val - 1) (Nat.lt_of_le_of_lt (Nat.sub_le _ _) t.isLt)).2.1
    ∧ (outsAt0 m c t.val t.isLt).2.2 = k0_pay1 (k0_pay8 (iblk m c 0 t) (iblk m c 1 t) (iblk m c 2 t) (outsAt0 m c (t.val - 1) (Nat.lt_of_le_of_lt (Nat.sub_le _ _) t.isLt)).2.2)
    ∧ (outsAt0 m c t.val t.isLt).1 = k0_pay2 (iblk m c 3 t) (k0_pay7 (iblk m c 0 t) (iblk m c 1 t) (iblk m c 2 t) (outsAt0 m c (t.val - 1) (Nat.lt_of_le_of_lt (Nat.sub_le _ _) t.isLt)).2.1)
        (k0_pay1 (k0_pay8 (iblk m c 0 t) (iblk m c 1 t) (iblk m c 2 t) (outsAt0 m c (t.val - 1) (Nat.lt_of_le_of_lt (Nat.sub_le _ _) t.isLt)).2.2)) := by
  rw [outsAt0_C m c t h0 h1]
  refine ⟨?_, ?_, ?_⟩
  · exact Cert.KPieces.sC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  · exact Cert.KPieces.sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  · exact Cert.KPieces.oC4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-! ## The carried buffers hold the accumulated mass and weighted sum of the image's stretches so far -/

/-- After point `n` — stretch `n % 4` of image `n / 4` — the first carried buffer holds, at cluster `k`, the mass
    accumulated over the stretches `0 … n % 4` of that image, and the second the weighted sums. -/
def Inv (n : ℕ) (h : n < cfg0.N) : Prop :=
  (∀ (k : Fin 64) (u : Fin 1), (outsAt0 m c n h).2.1 (ix2 k u) = accMass (aX m c) (aW m c) (aB m c) (n / 4) (n % 4) k)
  ∧ (∀ (k : Fin 64) (cc : Fin 240), (outsAt0 m c n h).2.2 (ix2 k cc) = accW (aX m c) (aW m c) (aB m c) (n / 4) (n % 4) k cc)

/-- An image's first stretch starts from the zero blocks. -/
theorem stepA (t : Fin cfg0.N) (h0 : t.val % 4 = 0) (h1 : ¬t.val % 4 = 3) : Inv m c t.val t.isLt := by
  obtain ⟨e1, e2⟩ := ptA m c t h0 h1
  refine ⟨fun k u => ?_, fun k cc => ?_⟩
  · rw [e1]
    refine (Cert.KPay.pay7_sem (iblk m c 0 t) (iblk m c 1 t) (iblk m c 2 t) (aX m c) (aW m c) (aB m c) (t.val / 4) (t.val % 4)
      (fun cc y => blk0 m c t cc y) (fun k cc => blk1 m c t k cc) (fun k => blk2 m c t k) (k0_pay3 (F := Ideal)) k u).trans ?_
    rw [Cert.KPay.pay3_apply, zero_add, h0, accMass_zero]
  · rw [e2, Cert.KPay.pay1_eq]
    refine (Cert.KPay.pay8_sem (iblk m c 0 t) (iblk m c 1 t) (iblk m c 2 t) (aX m c) (aW m c) (aB m c) (t.val / 4) (t.val % 4)
      (fun cc y => blk0 m c t cc y) (fun k cc => blk1 m c t k cc) (fun k => blk2 m c t k) (k0_pay4 (F := Ideal)) k cc).trans ?_
    rw [Cert.KPay.pay4_apply, zero_add, h0, accW_zero]

/-- A later stretch adds its own mass and weighted sums to what the stretch before left. -/
theorem stepBC (t : Fin cfg0.N) (h0 : ¬t.val % 4 = 0)
    (hprev : Inv m c (t.val - 1) (Nat.lt_of_le_of_lt (Nat.sub_le _ _) t.isLt)) : Inv m c t.val t.isLt := by
  have ea : (t.val - 1) / 4 = t.val / 4 := by omega
  have eb : t.val % 4 = (t.val - 1) % 4 + 1 := by omega
  have hs : (outsAt0 m c t.val t.isLt).2.1 = k0_pay7 (iblk m c 0 t) (iblk m c 1 t) (iblk m c 2 t) (outsAt0 m c (t.val - 1) (Nat.lt_of_le_of_lt (Nat.sub_le _ _) t.isLt)).2.1
      ∧ (outsAt0 m c t.val t.isLt).2.2 = k0_pay1 (k0_pay8 (iblk m c 0 t) (iblk m c 1 t) (iblk m c 2 t) (outsAt0 m c (t.val - 1) (Nat.lt_of_le_of_lt (Nat.sub_le _ _) t.isLt)).2.2) := by
    by_cases h1 : t.val % 4 = 3
    · exact ⟨(ptC m c t h0 h1).1, (ptC m c t h0 h1).2.1⟩
    · exact ptB m c t h0 h1
  obtain ⟨e1, e2⟩ := hs
  refine ⟨fun k u => ?_, fun k cc => ?_⟩
  · rw [e1]
    refine (Cert.KPay.pay7_sem (iblk m c 0 t) (iblk m c 1 t) (iblk m c 2 t) (aX m c) (aW m c) (aB m c) (t.val / 4) (t.val % 4)
      (fun cc y => blk0 m c t cc y) (fun k cc => blk1 m c t k cc) (fun k => blk2 m c t k) (outsAt0 m c (t.val - 1) (Nat.lt_of_le_of_lt (Nat.sub_le _ _) t.isLt)).2.1 k u).trans ?_
    rw [hprev.1 k u, ea, eb, accMass_succ]
  · rw [e2, Cert.KPay.pay1_eq]
    refine (Cert.KPay.pay8_sem (iblk m c 0 t) (iblk m c 1 t) (iblk m c 2 t) (aX m c) (aW m c) (aB m c) (t.val / 4) (t.val % 4)
      (fun cc y => blk0 m c t cc y) (fun k cc => blk1 m c t k cc) (fun k => blk2 m c t k) (outsAt0 m c (t.val - 1) (Nat.lt_of_le_of_lt (Nat.sub_le _ _) t.isLt)).2.2 k cc).trans ?_
    rw [hprev.2 k cc, ea, eb, accW_succ]

theorem inv : ∀ (n : ℕ) (h : n < cfg0.N), Inv m c n h
  | 0, h => stepA m c ⟨0, h⟩ rfl (by dsimp only; omega)
  | n + 1, h => by
    by_cases h0 : (n + 1) % 4 = 0
    · exact stepA m c ⟨n + 1, h⟩ h0 (by dsimp only; omega)
    · exact stepBC m c ⟨n + 1, h⟩ h0 (inv n (Nat.lt_of_succ_lt h))

/-- At an image's last stretch the output block holds the image's descriptor. -/
theorem out_last (t : Fin cfg0.N) (h1 : t.val % 4 = 3) (u : Fin 1) (k : Fin 64) (cc : Fin 240) :
    (outsAt0 m c t.val t.isLt).1 (ix3 u k cc) = desc (aX m c) (aW m c) (aB m c) (aC m c) (t.val / 4) k cc := by
  have h0 : ¬t.val % 4 = 0 := by omega
  obtain ⟨e1, e2, e3⟩ := ptC m c t h0 h1
  obtain ⟨i1, i2⟩ := inv m c t.val t.isLt
  rw [e3]
  refine Cert.KPay.pay2_sem (iblk m c 3 t) _ _ (aX m c) (aW m c) (aB m c) (aC m c) (t.val / 4) (fun k cc => blk3 m c t k cc) (fun k => ?_) (fun k cc => ?_) u k cc
  · rw [← e1, i1 k 0, h1, accMass_three]
  · rw [← e2, i2 k cc, h1, accW_three]

end Cert.KInv

end
-- ==== Proof.KFinal.lean ====
/-
  The kernel's result array.

  The output window's block at point `t` is image `t / 4`'s whole [64, 240] plane of the [32, 64, 240] result, written
  back only at the image's last stretch (`t % 4 = 3`), where the body has just stored the image's descriptor; the 32
  planes tile the array, so the region ends with the descriptor of every image, and the one host line after the region
  flattens each plane to a row of 15360: position `j` is cluster `j / 240`, channel `j % 240`.
-/
import proofs.«149352_j1425929142291_1_alg».proof.Proof.KInv
import Idealize.ShloMosaic.Lib.Pipeline.FrameSuffix

set_option maxRecDepth 16384

noncomputable section

open Idealize.ShloMosaic Idealize.ShloMosaic.TcCoe Idealize.SL.Sem Idealize.ShloMosaic.ValueIdx
open Idealize.ShloMosaic.Pipeline (Dat)

namespace Cert.KFinal

open Cert.KernelIdeal Cert.KernelIdeal.Gen Cert.Desc Cert.KBlocks

variable (m : (ℓ : Loc nD τ sig) → Buf (Elt Ideal) ℓ) (ρ : Dev nD → PrngReg)

/-- The descriptor of the launched arguments, as a [32, 64, 240] array. -/
abbrev D3m (c : Dev nD) : S32x64x240.Idx → EReal := D3 (aX m c) (aW m c) (aB m c) (aC m c)

/-- The output window's block at point `t` is image `t / 4`'s whole [64, 240] plane. -/
theorem idx4 : ∀ t : Fin cfg0.N, win0_4.index t 0 = t.val / 4 ∧ win0_4.index t 1 = 0 ∧ win0_4.index t 2 = 0 :=
  (by decide +kernel : ∀ t : Fin grid0.N, win0_4.index t 0 = t.val / 4 ∧ win0_4.index t 1 = 0 ∧ win0_4.index t 2 = 0)

/-- What a write-back writes is that plane of the descriptor. -/
theorem flushed_eq (c : Dev nD) (t : Fin cfg0.N) (hf : (cfg0.win 4).flush t = true) :
    (dats m 0 c).flushed 4 t = ((cfg0.win 4).blk t).view.read (Elt Ideal) (D3m m c) := by
  have h3 : t.val % 4 = 3 := (flush0_4 t).mp hf
  show (cfg0.win 4).cut (grid0.coords t) ((dats m 0 c).after 4 t) = _
  rw [after0_4]
  funext j
  show (outsAt0 m c t.val t.isLt).1 j = D3m m c (((cfg0.win 4).blk t).view.emb j)
  have hj : (j : S1x64x240.Idx) = ix3 (j 0) (j 1) (j 2) := eq_ix3 j
  refine (congrArg (outsAt0 m c t.val t.isLt).1 hj).trans ?_
  refine (Cert.KInv.out_last m c t h3 (j 0) (j 1) (j 2)).trans ?_
  obtain ⟨i0, i1, i2⟩ := idx4 t
  have e0 : ((((cfg0.win 4).blk t).view.emb j) 0).val = t.val / 4 := by
    show win0_4.index t 0 * 1 + 1 * (j 0).val = t.val / 4
    have hj0 : (j 0).val < 1 := (j 0).isLt
    rw [i0]; omega
  have e1 : (((cfg0.win 4).blk t).view.emb j) 1 = j 1 := Fin.ext (by
    show win0_4.index t 1 * 64 + 1 * (j 1).val = (j 1).val
    rw [i1]; omega)
  have e2 : (((cfg0.win 4).blk t).view.emb j) 2 = j 2 := Fin.ext (by
    show win0_4.index t 2 * 240 + 1 * (j 2).val = (j 2).val
    rw [i2]; omega)
  show _ = desc (aX m c) (aW m c) (aB m c) (aC m c) ((((cfg0.win 4).blk t).view.emb j) 0).val ((((cfg0.win 4).blk t).view.emb j) 1) ((((cfg0.win 4).blk t).view.emb j) 2)
  rw [e0, e1, e2]

/-- An index of the array is in point `t`'s block iff each coordinate is in the block's range on its axis. -/
theorem mem_blk4 (t : Fin cfg0.N) (i : S32x64x240.Idx) :
    i ∈ ((cfg0.win 4).blk t).view.set ↔ ∀ a : Fin 3, win0_4.index t a * S1x64x240.size a ≤ (i a).val ∧ (i a).val < win0_4.index t a * S1x64x240.size a + S1x64x240.size a := by
  show i ∈ ((View.whole main_v3).slice (win0_4.rect t)).set ↔ _
  rw [View.set_slice_whole, Rect.mem_set_unit]
  exact Iff.rfl

/-- Image `b`'s plane is written back at the image's last stretch, point `4 b + 3`. -/
theorem cover (i : S32x64x240.Idx) : ∃ t : Fin cfg0.N, (cfg0.win 4).flush t = true ∧ i ∈ ((cfg0.win 4).blk t).view.set := by
  have hi0 : (i 0).val < 32 := (i 0).isLt
  have hi1 : (i 1).val < 64 := (i 1).isLt
  have hi2 : (i 2).val < 240 := (i 2).isLt
  have hN : cfg0.N = 128 := N_0
  refine ⟨⟨4 * (i 0).val + 3, by rw [hN]; omega⟩, (flush0_4 _).mpr (by dsimp only; omega), ?_⟩
  rw [mem_blk4]
  obtain ⟨i0, i1, i2⟩ := idx4 ⟨4 * (i 0).val + 3, by rw [hN]; omega⟩
  intro a
  match a with
  | ⟨0, _⟩ => show win0_4.index _ 0 * 1 ≤ (i 0).val ∧ (i 0).val < win0_4.index _ 0 * 1 + 1; rw [i0]; dsimp only; omega
  | ⟨1, _⟩ => show win0_4.index _ 1 * 64 ≤ (i 1).val ∧ (i 1).val < win0_4.index _ 1 * 64 + 64; rw [i1]; omega
  | ⟨2, _⟩ => show win0_4.index _ 2 * 240 ≤ (i 2).val ∧ (i 2).val < win0_4.index _ 2 * 240 + 240; rw [i2]; omega

/-- So the region's result array ends holding the descriptor. -/
theorem final (c : Dev nD) : (dats m 0 c).arrAt 4 cfg0.N = D3m m c :=
  (dats m 0 c).arrAt_eq_of_cover 4 (D3m m c) (fun t hf => flushed_eq m c t hf) cover

/-- The host line after the region flattens it. -/
theorem tail_eq (c : Dev nD) :
    Pipeline.afterTail₀ cfgs (dats m) 0 (V0 m) [hostOps1] c main_v4 = shapeCast S32x15360 (D3m m c) shapeCasts_S32x64x240_S32x15360 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v3) = D3m m c :=
    (Pipeline.withArrays_arr spec0 launch0.win.arr_inj c _ _ 4).trans (final m c)
  rw [hw]
  rfl

/-- The [32, 64, 240] descriptor flattened is the [32, 15360] one: position `j` of a row is cluster `j / 240`, channel `j % 240`. -/
theorem flat_eq (X : FeatT) (W : WeightT) (Bv : BiasT) (Cl : CentreT)
    (h : (⟨3, ![32, 64, 240]⟩ : Shape).ShapeCasts ⟨2, ![32, 15360]⟩) :
    shapeCast ⟨2, ![32, 15360]⟩ (D3 X W Bv Cl) h = G X W Bv Cl := by
  funext i
  have hi1 : (i 1).val < 15360 := (i 1).isLt
  refine (shapeCast_apply _ h i (ix3 (i 0) (⟨(i 1).val / 240, by omega⟩ : Fin 64) (⟨(i 1).val % 240, Nat.mod_lt _ (by norm_num)⟩ : Fin 240)) ?_).trans rfl
  rw [Shape.rowMajor_val_three, Shape.rowMajor_val_two]
  show ((i 0).val * 64 + (i 1).val / 240) * 240 + (i 1).val % 240 = (i 0).val * 15360 + (i 1).val
  omega

/-- The kernel's run, read: its result is the descriptor of the launched arguments, which end unchanged. -/
theorem run : θ_run defs (onTc (τ := τ) (main (F := Ideal))) ⟨m, fun _ => 0, ρ⟩ fun r => ∀ c : Dev nD,
      r.2.mem ((c.tc : Thread nD τ).loc main_v4) = G (aX m c) (aW m c) (aB m c) (aC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v4 (Pipeline.mem_restRefs_of main_v4 (by decide) (by decide))).trans
        ((tail_eq m c).trans (flat_eq (aX m c) (aW m c) (aB m c) (aC m c) shapeCasts_S32x64x240_S32x15360)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KFinal

end
-- ==== Proof.lean ====
/-
  The certificate: a kernel that accumulates a soft-assignment descriptor over four stretches of an image's pixels
  computes, on the extended reals, what the reference computes over all the pixels at once.

  Both programs take a feature map [32, 240, 64, 64], a weight matrix [64, 240], a bias [64] and cluster centres
  [1, 64, 240]. For each image the 4096 pixels are softly assigned to 64 clusters (the softmax of weight · pixel + bias),
  the cluster's mass times its centre minus the assignment-weighted sum of the pixels is the residual, each cluster's row
  of residuals is divided by the larger of its Euclidean norm and ε, and the whole [64 · 240] descriptor by the larger of
  its Euclidean norm and ε. The kernel walks a 32 × 4 grid: each point adds one stretch of 1024 pixels to two carried
  buffers and the image's last point writes the descriptor; the reference sums over all pixels in one contraction.

  The two agree index by index because a sum over 4096 pixels is the sum of four consecutive partial sums, a sum over
  64 · 240 flattened positions is the double sum over cluster and channel, and a product does not depend on the order
  of its factors: laws of a commutative monoid, which hold on the extended reals with no finiteness, so the
  precondition is never opened. The specification is Proof/Spec.lean; that the reference computes it is
  Proof/RefIs.lean; the kernel's arithmetic at an index is Proof/KPay.lean, its blocks Proof/KBlocks.lean, the
  accumulation along the grid Proof/KInv.lean and the result array Proof/KFinal.lean. The three frames are the generated
  frame runs; the kernel's idealization rewrote nothing.
-/
import proofs.«149352_j1425929142291_1_alg».proof.Defs
import proofs.«149352_j1425929142291_1_alg».proof.Proof.Gen.Kernel
import proofs.«149352_j1425929142291_1_alg».proof.Proof.Gen.Kernel.Skeleton
import proofs.«149352_j1425929142291_1_alg».proof.Proof.Gen.Kernel.Launch
import proofs.«149352_j1425929142291_1_alg».proof.Proof.Gen.Kernel.Points
import proofs.«149352_j1425929142291_1_alg».proof.Proof.Gen.Kernel.Frame
import proofs.«149352_j1425929142291_1_alg».proof.Proof.Gen.KernelIdeal
import proofs.«149352_j1425929142291_1_alg».proof.Proof.Gen.KernelIdeal.Skeleton
import proofs.«149352_j1425929142291_1_alg».proof.Proof.Gen.KernelIdeal.Launch
import proofs.«149352_j1425929142291_1_alg».proof.Proof.Gen.KernelIdeal.Points
import proofs.«149352_j1425929142291_1_alg».proof.Proof.Gen.KernelIdeal.Frame
import proofs.«149352_j1425929142291_1_alg».proof.Proof.Gen.ReferenceIdeal
import proofs.«149352_j1425929142291_1_alg».proof.Proof.Gen.ReferenceIdeal.Run
import proofs.«149352_j1425929142291_1_alg».proof.Proof.Gen.ReferenceIdeal.Read
import proofs.«149352_j1425929142291_1_alg».proof.Proof.Gen.Pre_finite_inputs
import proofs.«149352_j1425929142291_1_alg».proof.Proof.RefIs
import proofs.«149352_j1425929142291_1_alg».proof.Proof.KFinal
import Idealize.ShloMosaic.Adequacy
import Idealize.ShloMosaic.Init

noncomputable section

namespace Cert.Proof

open Idealize.ShloMosaic Idealize.SL.Sem

/-- The word-level kernel runs and leaves its arguments unchanged: the generated frame run. -/
theorem frame_k : Cert.frame_Kernel (hKernel := Cert.Kernel.Gen.facts) (hPre_finite_inputs := Cert.Pre_finite_inputs.Gen.facts) :=
  fun m ρ _ => Cert.Kernel.Gen.frame m ρ

/-- The same for the kernel read on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end at the descriptor of the specification, of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Desc.G (Cert.KBlocks.aX m c) (Cert.KBlocks.aW m c) (Cert.KBlocks.aB m c) (Cert.KBlocks.aC m c),
    Cert.KFinal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.RefIs.ref_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
